-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S512 .f32) (main_arg6 : FVec F S1x512 .f32) (main_arg7 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg6
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S65536x512 .f32) (main_arg1 : IVec S65536 32) (main_arg2 : FVec F S1536x512 .f32) (main_arg3 : FVec F S1536 .f32) (main_arg4 : FVec F S512x512 .f32) (main_arg5 : FVec F S512 .f32) (main_arg6 : FVec F S1x512 .f32) (main_arg7 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1536x512 .f32 := Host.absf main_arg2
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg3
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S65536x512 : Shape := ⟨2, ![65536, 512]⟩
abbrev S65536 : Shape := ⟨1, ![65536]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1024x64x512 : Shape := ⟨3, ![1024, 64, 512]⟩
abbrev S512x1536 : Shape := ⟨2, ![512, 1536]⟩
abbrev S1x1536 : Shape := ⟨2, ![1, 1536]⟩
abbrev S1x1 : Shape := ⟨2, ![1, 1]⟩
abbrev S1024x512 : Shape := ⟨2, ![1024, 512]⟩
abbrev S32x64x512 : Shape := ⟨3, ![32, 64, 512]⟩
abbrev S32x512 : Shape := ⟨2, ![32, 512]⟩
abbrev S2048x1536 : Shape := ⟨2, ![2048, 1536]⟩
abbrev S2048x512 : Shape := ⟨2, ![2048, 512]⟩
abbrev S2048x64 : Shape := ⟨2, ![2048, 64]⟩
abbrev S32x64x64 : Shape := ⟨3, ![32, 64, 64]⟩
abbrev S32x64 : Shape := ⟨2, ![32, 64]⟩
abbrev S32x64x1 : Shape := ⟨3, ![32, 64, 1]⟩
abbrev S2048 : Shape := ⟨1, ![2048]⟩
abbrev S2048x1 : Shape := ⟨2, ![2048, 1]⟩

abbrev nBuf : Space → Nat
  | .hbm => 18
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1024x64x512, .f32⟩
  | .hbm, ⟨9, _⟩ => ⟨S1024x64x512, .bf16⟩
  | .hbm, ⟨10, _⟩ => ⟨S512x1536, .f32⟩
  | .hbm, ⟨11, _⟩ => ⟨S512x1536, .bf16⟩
  | .hbm, ⟨12, _⟩ => ⟨S1x1536, .f32⟩
  | .hbm, ⟨13, _⟩ => ⟨S512x512, .f32⟩
  | .hbm, ⟨14, _⟩ => ⟨S512x512, .bf16⟩
  | .hbm, ⟨15, _⟩ => ⟨S1x512, .f32⟩
  | .hbm, ⟨16, _⟩ => ⟨S1x1, .f32⟩
  | .hbm, ⟨17, _⟩ => ⟨S1024x512, .f32⟩
  | .local _ .vmem, ⟨0, _⟩ => ⟨S32x64x512, .bf16⟩
  | .local _ .vmem, ⟨1, _⟩ => ⟨S32x64x512, .bf16⟩
  | .local _ .vmem, ⟨2, _⟩ => ⟨S512x1536, .bf16⟩
  | .local _ .vmem, ⟨3, _⟩ => ⟨S1x1536, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S32x512, .f32⟩
  | .local _ .vmem, ⟨9, _⟩ => ⟨S32x512, .f32⟩
  | .local _ .vmem, ⟨10, _⟩ => ⟨S2048x1536, .bf16⟩
  | .local _ .vmem, ⟨11, _⟩ => ⟨S2048x512, .bf16⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S65536x512_S1024x64x512 : S65536x512.ShapeCasts S1024x64x512
  bitsLt_bf16_f32 : FTy.bits .bf16 < FTy.bits .f32
  transposes_S1536x512_S512x1536_1_0 : S1536x512.Transposes [1, 0] S512x1536
  shapeCasts_S1536_S1x1536 : S1536.ShapeCasts S1x1536
  transposes_S512x512_S512x512_1_0 : S512x512.Transposes [1, 0] S512x512
  shapeCasts_S512_S1x512 : S512.ShapeCasts S1x512
  shapeCasts_S1_S1x1 : S1.ShapeCasts S1x1
  inb_S32x64x512_S32x64x512_0_0_0 : ∀ a, (![0, 0, 0] : Fin 3 → Nat) a + S32x64x512.size a ≤ S32x64x512.size a
  h_S32x64x512 : 0 < S32x64x512.numel
  shapeCasts_S32x64x512_S32x64x512 : S32x64x512.ShapeCasts S32x64x512
  shapeCasts_S32x64x512_S2048x512 : S32x64x512.ShapeCasts S2048x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S2048x1536 : S1x1536.Broadcasts S2048x1536
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  packedbf16_S2048x1536_S2048x1536_0_0 : (Rect.unit (s := S2048x1536) ![0, 0] S2048x1536.size inb_S2048x1536_S2048x1536_0_0).PackedRows (EltTy.packing .bf16)
  inb_S2048x1536_S2048x64_0_0 : ∀ a, (![0, 0] : Fin 2 → Nat) a + S2048x64.size a ≤ S2048x1536.size a
  h_S2048x64 : 0 < S2048x64.numel
  shapeCasts_S2048x64_S32x64x64 : S2048x64.ShapeCasts S32x64x64
  inb_S2048x1536_S2048x64_0_512 : ∀ a, (![0, 512] : Fin 2 → Nat) a + S2048x64.size a ≤ S2048x1536.size a
  inb_S2048x1536_S2048x64_0_1024 : ∀ a, (![0, 1024] : Fin 2 → Nat) a + S2048x64.size a ≤ S2048x1536.size a
  reduces_S32x64x64_S32x64 : S32x64x64.Reduces [2] S32x64
  shapeCasts_S32x64_S32x64x1 : S32x64.ShapeCasts S32x64x1
  broadcasts_S32x64x1_S32x64x64 : S32x64x1.Broadcasts S32x64x64
  shapeCasts_S32x64x64_S2048x64 : S32x64x64.ShapeCasts S2048x64
  inb_S2048x512_S2048x64_0_0 : ∀ a, (![0, 0] : Fin 2 → Nat) a + S2048x64.size a ≤ S2048x512.size a
  shapeCasts_S2048x64_S2048x64 : S2048x64.ShapeCasts S2048x64
  packedbf16_S2048x512_S2048x64_0_0 : (Rect.unit (s := S2048x512) ![0, 0] S2048x64.size inb_S2048x512_S2048x64_0_0).PackedRows (EltTy.packing .bf16)
  inb_S2048x1536_S2048x64_0_64 : ∀ a, (![0, 64] : Fin 2 → Nat) a + S2048x64.size a ≤ S2048x1536.size a
  inb_S2048x1536_S2048x64_0_576 : ∀ a, (![0, 576] : Fin 2 → Nat) a + S2048x64.size a ≤ S2048x1536.size a
  inb_S2048x1536_S2048x64_0_1088 : ∀ a, (![0, 1088] : Fin 2 → Nat) a + S2048x64.size a ≤ S2048x1536.size a
  inb_S2048x512_S2048x64_0_64 : ∀ a, (![0, 64] : Fin 2 → Nat) a + S2048x64.size a ≤ S2048x512.size a
  packedbf16_S2048x512_S2048x64_0_64 : (Rect.unit (s := S2048x512) ![0, 64] S2048x64.size inb_S2048x512_S2048x64_0_64).PackedRows (EltTy.packing .bf16)
  inb_S2048x1536_S2048x64_0_128 : ∀ a, (![0, 128] : Fin 2 → Nat) a + S2048x64.size a ≤ S2048x1536.size a
  inb_S2048x1536_S2048x64_0_640 : ∀ a, (![0, 640] : Fin 2 → Nat) a + S2048x64.size a ≤ S2048x1536.size a
  inb_S2048x1536_S2048x64_0_1152 : ∀ a, (![0, 1152] : Fin 2 → Nat) a + S2048x64.size a ≤ S2048x1536.size a
  inb_S2048x512_S2048x64_0_128 : ∀ a, (![0, 128] : Fin 2 → Nat) a + S2048x64.size a ≤ S2048x512.size a
  packedbf16_S2048x512_S2048x64_0_128 : (Rect.unit (s := S2048x512) ![0, 128] S2048x64.size inb_S2048x512_S2048x64_0_128).PackedRows (EltTy.packing .bf16)
  inb_S2048x1536_S2048x64_0_192 : ∀ a, (![0, 192] : Fin 2 → Nat) a + S2048x64.size a ≤ S2048x1536.size a
  inb_S2048x1536_S2048x64_0_704 : ∀ a, (![0, 704] : Fin 2 → Nat) a + S2048x64.size a ≤ S2048x1536.size a
  inb_S2048x1536_S2048x64_0_1216 : ∀ a, (![0, 1216] : Fin 2 → Nat) a + S2048x64.size a ≤ S2048x1536.size a
  inb_S2048x512_S2048x64_0_192 : ∀ a, (![0, 192] : Fin 2 → Nat) a + S2048x64.size a ≤ S2048x512.size a
  packedbf16_S2048x512_S2048x64_0_192 : (Rect.unit (s := S2048x512) ![0, 192] S2048x64.size inb_S2048x512_S2048x64_0_192).PackedRows (EltTy.packing .bf16)
  inb_S2048x1536_S2048x64_0_256 : ∀ a, (![0, 256] : Fin 2 → Nat) a + S2048x64.size a ≤ S2048x1536.size a
  inb_S2048x1536_S2048x64_0_768 : ∀ a, (![0, 768] : Fin 2 → Nat) a + S2048x64.size a ≤ S2048x1536.size a
  inb_S2048x1536_S2048x64_0_1280 : ∀ a, (![0, 1280] : Fin 2 → Nat) a + S2048x64.size a ≤ S2048x1536.size a
  inb_S2048x512_S2048x64_0_256 : ∀ a, (![0, 256] : Fin 2 → Nat) a + S2048x64.size a ≤ S2048x512.size a
  packedbf16_S2048x512_S2048x64_0_256 : (Rect.unit (s := S2048x512) ![0, 256] S2048x64.size inb_S2048x512_S2048x64_0_256).PackedRows (EltTy.packing .bf16)
  inb_S2048x1536_S2048x64_0_320 : ∀ a, (![0, 320] : Fin 2 → Nat) a + S2048x64.size a ≤ S2048x1536.size a
  inb_S2048x1536_S2048x64_0_832 : ∀ a, (![0, 832] : Fin 2 → Nat) a + S2048x64.size a ≤ S2048x1536.size a
  inb_S2048x1536_S2048x64_0_1344 : ∀ a, (![0, 1344] : Fin 2 → Nat) a + S2048x64.size a ≤ S2048x1536.size a
  inb_S2048x512_S2048x64_0_320 : ∀ a, (![0, 320] : Fin 2 → Nat) a + S2048x64.size a ≤ S2048x512.size a
  packedbf16_S2048x512_S2048x64_0_320 : (Rect.unit (s := S2048x512) ![0, 320] S2048x64.size inb_S2048x512_S2048x64_0_320).PackedRows (EltTy.packing .bf16)
  inb_S2048x1536_S2048x64_0_384 : ∀ a, (![0, 384] : Fin 2 → Nat) a + S2048x64.size a ≤ S2048x1536.size a
  inb_S2048x1536_S2048x64_0_896 : ∀ a, (![0, 896] : Fin 2 → Nat) a + S2048x64.size a ≤ S2048x1536.size a
  inb_S2048x1536_S2048x64_0_1408 : ∀ a, (![0, 1408] : Fin 2 → Nat) a + S2048x64.size a ≤ S2048x1536.size a
  inb_S2048x512_S2048x64_0_384 : ∀ a, (![0, 384] : Fin 2 → Nat) a + S2048x64.size a ≤ S2048x512.size a
  packedbf16_S2048x512_S2048x64_0_384 : (Rect.unit (s := S2048x512) ![0, 384] S2048x64.size inb_S2048x512_S2048x64_0_384).PackedRows (EltTy.packing .bf16)
  inb_S2048x1536_S2048x64_0_448 : ∀ a, (![0, 448] : Fin 2 → Nat) a + S2048x64.size a ≤ S2048x1536.size a
  inb_S2048x1536_S2048x64_0_960 : ∀ a, (![0, 960] : Fin 2 → Nat) a + S2048x64.size a ≤ S2048x1536.size a
  inb_S2048x1536_S2048x64_0_1472 : ∀ a, (![0, 1472] : Fin 2 → Nat) a + S2048x64.size a ≤ S2048x1536.size a
  inb_S2048x512_S2048x64_0_448 : ∀ a, (![0, 448] : Fin 2 → Nat) a + S2048x64.size a ≤ S2048x512.size a
  packedbf16_S2048x512_S2048x64_0_448 : (Rect.unit (s := S2048x512) ![0, 448] S2048x64.size inb_S2048x512_S2048x64_0_448).PackedRows (EltTy.packing .bf16)
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  broadcasts_S2048x1_S2048x512 : S2048x1.Broadcasts S2048x512
  shapeCasts_S2048x512_S32x64x512 : S2048x512.ShapeCasts S32x64x512
  reduces_S32x64x512_S32x512 : S32x64x512.Reduces [1] S32x512
  inb_S32x512_S32x512_0_0 : ∀ a, (![0, 0] : Fin 2 → Nat) a + S32x512.size a ≤ S32x512.size a
  h_S32x512 : 0 < S32x512.numel
  dot_S2048x512_S512x1536_S2048x1536_1_0_0_1_n_n_wf : DotDims.WF S2048x512 S512x1536 S2048x1536 [1] [0] [0] [1] [] []
  dot_S32x64x64_S32x64x64_S32x64x64_2_2_1_1_0_0_wf : DotDims.WF S32x64x64 S32x64x64 S32x64x64 [2] [2] [1] [1] [0] [0]
  dot_S32x64x64_S32x64x64_S32x64x64_2_1_1_2_0_0_wf : DotDims.WF S32x64x64 S32x64x64 S32x64x64 [2] [1] [1] [2] [0] [0]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S1024x64x512.size a
  hwx0_0 : ∀ i : grid0.Coords, EltTy.bits .bf16 = 32 ∨ (Rect.block (s := S1024x64x512) S32x64x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x512.size a ≤ S1024x512.size a
  hwx0_7 : ∀ i : grid0.Coords, EltTy.bits .f32 = 32 ∨ (Rect.block (s := S1024x512) S32x512.size (cc0_transform_7 i) (hinb0_7 i)).WholeWords (EltTy.packing .f32)

variable [Facts₀]

def dot_S2048x512_S512x1536_S2048x1536_1_0_0_1_n_n : DotDims S2048x512 S512x1536 S2048x1536 where
  lhsContracting := [1]
  rhsContracting := [0]
  lhsNonContracting := [0]
  rhsNonContracting := [1]
  lhsBatch := []
  rhsBatch := []
  wf := dot_S2048x512_S512x1536_S2048x1536_1_0_0_1_n_n_wf
def dot_S32x64x64_S32x64x64_S32x64x64_2_2_1_1_0_0 : DotDims S32x64x64 S32x64x64 S32x64x64 where
  lhsContracting := [2]
  rhsContracting := [2]
  lhsNonContracting := [1]
  rhsNonContracting := [1]
  lhsBatch := [0]
  rhsBatch := [0]
  wf := dot_S32x64x64_S32x64x64_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v1) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S32x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1024x64x512 : Shape := ⟨3, ![1024, 64, 512]⟩
abbrev S1024x64x1536 : Shape := ⟨3, ![1024, 64, 1536]⟩
abbrev S1x1x1536 : Shape := ⟨3, ![1, 1, 1536]⟩
abbrev S1024x64x8x64 : Shape := ⟨4, ![1024, 64, 8, 64]⟩
abbrev S1024x8x64x64 : Shape := ⟨4, ![1024, 8, 64, 64]⟩
abbrev S_ : Shape := ⟨0, ![]⟩
abbrev S1024x8x64 : Shape := ⟨3, ![1024, 8, 64]⟩
abbrev S1024x8x64x1 : Shape := ⟨4, ![1024, 8, 64, 1]⟩
abbrev S1x1x512 : Shape := ⟨3, ![1, 1, 512]⟩
abbrev S1024x64x1 : Shape := ⟨3, ![1024, 64, 1]⟩
abbrev S1x1x1 : Shape := ⟨3, ![1, 1, 1]⟩
abbrev S1024x512 : Shape := ⟨2, ![1024, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1024x64x512, .f32⟩
  | .hbm, ⟨9, _⟩ => ⟨S1024x64x1536, .f32⟩
  | .hbm, ⟨10, _⟩ => ⟨S1x1x1536, .f32⟩
  | .hbm, ⟨11, _⟩ => ⟨S1024x64x1536, .f32⟩
  | .hbm, ⟨12, _⟩ => ⟨S1024x64x1536, .f32⟩
  | .hbm, ⟨13, _⟩ => ⟨S1024x64x512, .f32⟩
  | .hbm, ⟨14, _⟩ => ⟨S1024x64x512, .f32⟩
  | .hbm, ⟨15, _⟩ => ⟨S1024x64x512, .f32⟩
  | .hbm, ⟨16, _⟩ => ⟨S1024x64x8x64, .f32⟩
  | .hbm, ⟨17, _⟩ => ⟨S1024x8x64x64, .f32⟩
  | .hbm, ⟨18, _⟩ => ⟨S1024x64x8x64, .f32⟩
  | .hbm, ⟨19, _⟩ => ⟨S1024x8x64x64, .f32⟩
  | .hbm, ⟨20, _⟩ => ⟨S1024x64x8x64, .f32⟩
  | .hbm, ⟨21, _⟩ => ⟨S1024x8x64x64, .f32⟩
  | .hbm, ⟨22, _⟩ => ⟨S1024x8x64x64, .f32⟩
  | .hbm, ⟨23, _⟩ => ⟨S_, .f32⟩
  | .hbm, ⟨24, _⟩ => ⟨S1024x8x64x64, .f32⟩
  | .hbm, ⟨25, _⟩ => ⟨S1024x8x64x64, .f32⟩
  | .hbm, ⟨26, _⟩ => ⟨S_, .f32⟩
  | .hbm, ⟨27, _⟩ => ⟨S1024x8x64, .f32⟩
  | .hbm, ⟨28, _⟩ => ⟨S_, .f32⟩
  | .hbm, ⟨29, _⟩ => ⟨S1024x8x64, .f32⟩
  | .hbm, ⟨30, _⟩ => ⟨S1024x8x64, .f32⟩
  | .hbm, ⟨31, _⟩ => ⟨S1024x8x64x1, .f32⟩
  | .hbm, ⟨32, _⟩ => ⟨S1024x8x64x64, .f32⟩
  | .hbm, ⟨33, _⟩ => ⟨S1024x8x64x64, .f32⟩
  | .hbm, ⟨34, _⟩ => ⟨S1024x8x64x64, .f32⟩
  | .hbm, ⟨35, _⟩ => ⟨S_, .f32⟩
  | .hbm, ⟨36, _⟩ => ⟨S1024x8x64, .f32⟩
  | .hbm, ⟨37, _⟩ => ⟨S1024x8x64x1, .f32⟩
  | .hbm, ⟨38, _⟩ => ⟨S1024x8x64x64, .f32⟩
  | .hbm, ⟨39, _⟩ => ⟨S1024x8x64x64, .f32⟩
  | .hbm, ⟨40, _⟩ => ⟨S1024x8x64x64, .f32⟩
  | .hbm, ⟨41, _⟩ => ⟨S1024x64x8x64, .f32⟩
  | .hbm, ⟨42, _⟩ => ⟨S1024x64x512, .f32⟩
  | .hbm, ⟨43, _⟩ => ⟨S1024x64x512, .f32⟩
  | .hbm, ⟨44, _⟩ => ⟨S1x1x512, .f32⟩
  | .hbm, ⟨45, _⟩ => ⟨S1024x64x512, .f32⟩
  | .hbm, ⟨46, _⟩ => ⟨S1024x64x512, .f32⟩
  | .hbm, ⟨47, _⟩ => ⟨S1024x64x1, .f32⟩
  | .hbm, ⟨48, _⟩ => ⟨S1x1x1, .f32⟩
  | .hbm, ⟨49, _⟩ => ⟨S1024x64x1, .f32⟩
  | .hbm, ⟨50, _⟩ => ⟨S1024x64x1, .f32⟩
  | .hbm, ⟨51, _⟩ => ⟨S1024x64x1, .f32⟩
  | .hbm, ⟨52, _⟩ => ⟨S1024x64x1, .f32⟩
  | .hbm, ⟨53, _⟩ => ⟨S_, .f32⟩
  | .hbm, ⟨54, _⟩ => ⟨S1024x64x1, .f32⟩
  | .hbm, ⟨55, _⟩ => ⟨S1024x64x1, .f32⟩
  | .hbm, ⟨56, _⟩ => ⟨S_, .f32⟩
  | .hbm, ⟨57, _⟩ => ⟨S1024x64x1, .f32⟩
  | .hbm, ⟨58, _⟩ => ⟨S1024x64x1, .f32⟩
  | .hbm, ⟨59, _⟩ => ⟨S1024x64x512, .f32⟩
  | .hbm, ⟨60, _⟩ => ⟨S1024x64x512, .f32⟩
  | .hbm, ⟨61, _⟩ => ⟨S_, .f32⟩
  | .hbm, ⟨62, _⟩ => ⟨S1024x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  shapeCasts_S65536x512_S1024x64x512 : S65536x512.ShapeCasts S1024x64x512
  bcast_S1536_S1x1x1536_2 : S1536.BroadcastsInDim S1x1x1536 (![2] : Fin 1 → Fin S1x1x1536.rank)
  bcast_S1x1x1536_S1024x64x1536_0_1_2 : S1x1x1536.BroadcastsInDim S1024x64x1536 (![0, 1, 2] : Fin 3 → Fin S1024x64x1536.rank)
  slices_S1024x64x1536_S1024x64x512_0_0_0 : S1024x64x1536.Slices ![0, 0, 0] S1024x64x512
  slices_S1024x64x1536_S1024x64x512_0_0_512 : S1024x64x1536.Slices ![0, 0, 512] S1024x64x512
  slices_S1024x64x1536_S1024x64x512_0_0_1024 : S1024x64x1536.Slices ![0, 0, 1024] S1024x64x512
  shapeCasts_S1024x64x512_S1024x64x8x64 : S1024x64x512.ShapeCasts S1024x64x8x64
  transposes_S1024x64x8x64_S1024x8x64x64_0_2_1_3 : S1024x64x8x64.Transposes [0, 2, 1, 3] S1024x8x64x64
  bcast_S_S1024x8x64x64 : S_.BroadcastsInDim S1024x8x64x64 (![] : Fin 0 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  transposes_S1024x8x64x64_S1024x64x8x64_0_2_1_3 : S1024x8x64x64.Transposes [0, 2, 1, 3] S1024x64x8x64
  shapeCasts_S1024x64x8x64_S1024x64x512 : S1024x64x8x64.ShapeCasts S1024x64x512
  bcast_S512_S1x1x512_2 : S512.BroadcastsInDim S1x1x512 (![2] : Fin 1 → Fin S1x1x512.rank)
  bcast_S1x1x512_S1024x64x512_0_1_2 : S1x1x512.BroadcastsInDim S1024x64x512 (![0, 1, 2] : Fin 3 → Fin S1024x64x512.rank)
  bcast_S1_S1x1x1_2 : S1.BroadcastsInDim S1x1x1 (![2] : Fin 1 → Fin S1x1x1.rank)
  bcast_S1x1x1_S1024x64x1_0_1_2 : S1x1x1.BroadcastsInDim S1024x64x1 (![0, 1, 2] : Fin 3 → Fin S1024x64x1.rank)
  bcast_S_S1024x64x1 : S_.BroadcastsInDim S1024x64x1 (![] : Fin 0 → Fin S1024x64x1.rank)
  bcast_S1024x64x1_S1024x64x512_0_1_2 : S1024x64x1.BroadcastsInDim S1024x64x512 (![0, 1, 2] : Fin 3 → Fin S1024x64x512.rank)
  reducesTo_S1024x64x512_S1024x512_d1 : S1024x64x512.ReducesTo [1] S1024x512
  dot_S1024x64x512_S1536x512_S1024x64x1536_2_1_01_0_n_n_wf : DotDims.WF S1024x64x512 S1536x512 S1024x64x1536 [2] [1] [0, 1] [0] [] []
  dot_S1024x8x64x64_S1024x8x64x64_S1024x8x64x64_3_3_2_2_01_01_wf : DotDims.WF S1024x8x64x64 S1024x8x64x64 S1024x8x64x64 [3] [3] [2] [2] [0, 1] [0, 1]
  dot_S1024x8x64x64_S1024x8x64x64_S1024x8x64x64_3_2_2_3_01_01_wf : DotDims.WF S1024x8x64x64 S1024x8x64x64 S1024x8x64x64 [3] [2] [2] [3] [0, 1] [0, 1]
  dot_S1024x64x512_S512x512_S1024x64x512_2_1_01_0_n_n_wf : DotDims.WF S1024x64x512 S512x512 S1024x64x512 [2] [1] [0, 1] [0] [] []
  dot_S1024x64x512_S1x512_S1024x64x1_2_1_01_0_n_n_wf : DotDims.WF S1024x64x512 S1x512 S1024x64x1 [2] [1] [0, 1] [0] [] []

variable [Facts₀]

def dot_S1024x64x512_S1536x512_S1024x64x1536_2_1_01_0_n_n : DotDims S1024x64x512 S1536x512 S1024x64x1536 where
  lhsContracting := [2]
  rhsContracting := [1]
  lhsNonContracting := [0, 1]
  rhsNonContracting := [0]
  lhsBatch := []
  rhsBatch := []
  wf := dot_S1024x64x512_S1536x512_S1024x64x1536_2_1_01_0_n_n_wf
def dot_S1024x8x64x64_S1024x8x64x64_S1024x8x64x64_3_3_2_2_01_01 : DotDims S1024x8x64x64 S1024x8x64x64 S1024x8x64x64 where
  lhsContracting := [3]
  rhsContracting := [3]
  lhsNonContracting := [2]
  rhsNonContracting := [2]
  lhsBatch := [0, 1]
  rhsBatch := [0, 1]
  wf := dot_S1024x8x64x64_S1024x8x64x64_S1024x8x64x64_3_3_2_2_01_01_wf
def dot_S1024x8x64x64_S1024x8x64x64_S1024x8x64x64_3_2_2_3_01_01 : DotDims S1024x8x64x64 S1024x8x64x64 S1024x8x64x64 where
  lhsContracting := [3]
  rhsContracting := [2]
  lhsNonContracting := [2]
  rhsNonContracting := [3]
  lhsBatch := [0, 1]
  rhsBatch := [0, 1]
  wf := dot_S1024x8x64x64_S1024x8x64x64_S1024x8x64x64_3_2_2_3_01_01_wf
def dot_S1024x64x512_S512x512_S1024x64x512_2_1_01_0_n_n : DotDims S1024x64x512 S512x512 S1024x64x512 where
  lhsContracting := [2]
  rhsContracting := [1]
  lhsNonContracting := [0, 1]
  rhsNonContracting := [0]
  lhsBatch := []
  rhsBatch := []
  wf := dot_S1024x64x512_S512x512_S1024x64x512_2_1_01_0_n_n_wf
def dot_S1024x64x512_S1x512_S1024x64x1_2_1_01_0_n_n : DotDims S1024x64x512 S1x512 S1024x64x1 where
  lhsContracting := [2]
  rhsContracting := [1]
  lhsNonContracting := [0, 1]
  rhsNonContracting := [0]
  lhsBatch := []
  rhsBatch := []
  wf := dot_S1024x64x512_S1x512_S1024x64x1_2_1_01_0_n_n_wf

class Facts : Prop extends Facts₀ where

variable [Facts]
-- ==== Proof.Spec.lean ====
/-
  The mathematics both programs compute, one graph at a time, on the extended reals.

  A graph is 64 node rows of 512 features, `x n d`.  With the packed projection weights `Wi` (1536 × 512) and bias `bi`,
  `proj n e = Σ_d x n d · Wi e d + bi e` holds queries in columns 0–511, keys in 512–1023, values in 1024–1535; head `h`
  (of 8) owns the 64 columns `64h … 64h+63` of each third.  Per head, `score n m = (Σ_j q n j · k m j) · 1/8`, a row-wise
  softmax `attn n m = exp(score n m − max_m score n m) / Σ_m' exp(…)`, and `ctx n c = Σ_m attn n m · v m (c mod 64)` for
  column `c` of head `c / 64`.  Then `ao n e = Σ_c ctx n c · Wo e c + bo e`, a gate
  `gate n = logistic(Σ_d ao n d · gw d + gb)`, and the readout `out d = Σ_n ao n d · gate n`.
-/
import Idealize.ShloMosaic.PureOps.Ideal
import Idealize.ShloMosaic.Lib.ValueIdx

noncomputable section

namespace Cert.Spec

open Idealize.ShloMosaic

/-- The scale 1/8 = 1/√64, as the f32 word both programs carry. -/
def c8 : EReal := Ideal.ofBits .f32 0x3E000000#32
/-- The f32 word of −∞, from which both programs start a row's maximum. -/
def ninf : EReal := Ideal.ofBits .f32 0xFF800000#32

/-- Column of head `h`'s lane `j` among the queries, the keys, the values. -/
def qcol (h : Fin 8) (j : Fin 64) : Fin 1536 := ⟨64 * h.val + j.val, by omega⟩
def kcol (h : Fin 8) (j : Fin 64) : Fin 1536 := ⟨512 + 64 * h.val + j.val, by omega⟩
def vcol (h : Fin 8) (j : Fin 64) : Fin 1536 := ⟨1024 + 64 * h.val + j.val, by omega⟩
/-- Head and lane of a context column. -/
def hd (c : Fin 512) : Fin 8 := ⟨c.val / 64, by omega⟩
def lane (c : Fin 512) : Fin 64 := ⟨c.val % 64, by omega⟩
/-- Node `n` of graph `g` among all 65536 node rows. -/
def row (g : Fin 1024) (n : Fin 64) : Fin 65536 := ⟨g.val * 64 + n.val, by omega⟩

variable (x : Fin 64 → Fin 512 → EReal) (Wi : Fin 1536 → Fin 512 → EReal) (bi : Fin 1536 → EReal)
  (Wo : Fin 512 → Fin 512 → EReal) (bo : Fin 512 → EReal) (gw : Fin 512 → EReal) (gb : EReal)

/-- The packed query/key/value projection of node `n`, column `e`. -/
def proj (n : Fin 64) (e : Fin 1536) : EReal := (∑ d : Fin 512, x n d * Wi e d) + bi e

/-- Head `h`'s scaled score of query node `n` against key node `m`. -/
def score (h : Fin 8) (n m : Fin 64) : EReal :=
  (∑ j : Fin 64, proj x Wi bi n (qcol h j) * proj x Wi bi m (kcol h j)) * c8

/-- The row maximum the softmax subtracts: the fold of max from −∞ over the key nodes, once more against −∞. -/
def rowmax (h : Fin 8) (n : Fin 64) : EReal :=
  max ninf ((Finset.univ : Finset (Fin 64)).fold max ninf (fun m => score x Wi bi h n m))

/-- The shifted exponential, the softmax weight, the context. -/
def ex (h : Fin 8) (n m : Fin 64) : EReal := Ideal.exp (score x Wi bi h n m - rowmax x Wi bi h n)
def attn (h : Fin 8) (n m : Fin 64) : EReal := Ideal.div (ex x Wi bi h n m) (∑ m' : Fin 64, ex x Wi bi h n m')
def ctx (n : Fin 64) (c : Fin 512) : EReal :=
  ∑ m : Fin 64, attn x Wi bi (hd c) n m * proj x Wi bi m (vcol (hd c) (lane c))

/-- The output projection, the gate, the gated sum over the graph's nodes. -/
def ao (n : Fin 64) (e : Fin 512) : EReal := (∑ c : Fin 512, ctx x Wi bi n c * Wo e c) + bo e
def gate (n : Fin 64) : EReal := Ideal.logistic ((∑ d : Fin 512, ao x Wi bi Wo bo n d * gw d) + gb)
def out (d : Fin 512) : EReal := ∑ n : Fin 64, ao x Wi bi Wo bo n d * gate x Wi bi Wo bo gw gb n

end Cert.Spec

end
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.KOps.lean ====
/-
  The kernel body's three kinds of stored value, read at an index on the extended reals: the packed projection of a
  block of 32 graphs, one attention head's context from three column blocks of that projection, and the readout
  (output projection, gate, gated sum over a graph's nodes) from the assembled context.  A block's 2048 rows are its 32
  graphs' 64 nodes, row `gb·64 + n`; every reshape between [2048, ·] and [32, 64, ·] regroups rows by graph.
-/
import proofs.«105360_j10771777978557_2_alg».proof.Proof.Gen.KernelIdeal.Skeleton
import proofs.«105360_j10771777978557_2_alg».proof.Proof.Spec
import proofs.«105360_j10771777978557_2_alg».proof.Proof.LibLayout
import proofs.«105360_j10771777978557_2_alg».proof.Proof.LibAxisSums
import proofs.«105360_j10771777978557_2_alg».proof.Proof.LibColumnCast
import proofs.«105360_j10771777978557_2_alg».proof.Proof.LibColumnBroadcast
import proofs.«105360_j10771777978557_2_alg».proof.Proof.LibPlainMatmul
import Idealize.ShloMosaic.Lib.ValueLayout
import Idealize.ShloMosaic.Lib.Pipeline.Value
import Idealize.ShloMosaic.PureOps.Ideal.Laws

set_option maxRecDepth 16384

noncomputable section

namespace Cert.KValue

open Cert.KernelIdeal Cert.KernelIdeal.Gen Idealize.ShloMosaic Idealize.ShloMosaic.ValueIdx
open scoped BigOperators

/-- Row of node `n` of the block's graph `gb` among the block's 2048 node rows. -/
def brow (gb : Fin 32) (n : Fin 64) : Fin 2048 := ⟨gb.val * 64 + n.val, by omega⟩

/-- The two plain products of the body are plain m×k by k×n contractions. -/
theorem dotIn_eq : dot_S2048x512_S512x1536_S2048x1536_1_0_0_1_n_n = DotDims.plain 2048 512 1536 := rfl
theorem dotOut_eq : dot_S2048x512_S512x512_S2048x512_1_0_0_1_n_n = DotDims.plain 2048 512 512 := rfl

/-! ## The packed projection of a block -/

/-- Row `gb·64 + n`, column `e` of the block's projection is the specification's `proj` of graph `gb`'s rows: the
    block's 32×64 rows flattened, times the transposed weights, plus the bias row. -/
theorem pay3_apply (x0 : Vec Ideal S32x64x512 .bf16) (x1 : Vec Ideal S512x1536 .bf16) (x2 : Vec Ideal S1x1536 .f32)
    (gb : Fin 32) (n : Fin 64) (e : Fin 1536) :
    k0_pay3 (F := Ideal) x0 x1 x2 (ix2 (brow gb n) e)
      = Spec.proj (fun n d => x0 (ix3 gb n d)) (fun e d => x1 (ix2 d e)) (fun e => x2 (ix2 0 e)) n e := by
  unfold k0_pay3 Spec.proj
  simp only [shapeCast_self, dotIn_eq]
  rw [truncf_apply, addf_apply, matmul_plain_zero_apply, broadcastTo_1b_ab_apply]
  simp only [fun c => LibLayout.shapeCast_abc_nc_apply x0 shapeCasts_S32x64x512_S2048x512 gb n c (brow gb n) rfl]

/-! ## Batched products of [32, 64, 64] arrays, one 64×64 product per graph

Each operand index of a batched contraction, coordinate by coordinate: the batch coordinate is the result's, the free
coordinate is the result's own, the contracted coordinate is the contraction index. -/
theorem qk_lhs0 (i : S32x64x64.Idx) (q : dot_S32x64x64_S32x64x64_S32x64x64_2_2_1_1_0_0.contr.Idx) :
    (dot_S32x64x64_S32x64x64_S32x64x64_2_2_1_1_0_0.lhsIdx i q 0).val = (i 0).val := by
  unfold DotDims.lhsIdx
  rw [dif_pos (show (0 : Fin S32x64x64.rank) ∈ dot_S32x64x64_S32x64x64_S32x64x64_2_2_1_1_0_0.lhsBatch by decide)]
  rfl
theorem qk_lhs1 (i : S32x64x64.Idx) (q : dot_S32x64x64_S32x64x64_S32x64x64_2_2_1_1_0_0.contr.Idx) :
    (dot_S32x64x64_S32x64x64_S32x64x64_2_2_1_1_0_0.lhsIdx i q 1).val = (i 1).val := by
  unfold DotDims.lhsIdx
  rw [dif_neg (show ¬(1 : Fin S32x64x64.rank) ∈ dot_S32x64x64_S32x64x64_S32x64x64_2_2_1_1_0_0.lhsBatch by decide), dif_pos (show (1 : Fin S32x64x64.rank) ∈ dot_S32x64x64_S32x64x64_S32x64x64_2_2_1_1_0_0.lhsNonContracting by decide)]
  rfl
theorem qk_lhs2 (i : S32x64x64.Idx) (q : dot_S32x64x64_S32x64x64_S32x64x64_2_2_1_1_0_0.contr.Idx) :
    (dot_S32x64x64_S32x64x64_S32x64x64_2_2_1_1_0_0.lhsIdx i q 2).val = (q ⟨0, by decide⟩).val :=
  dot_S32x64x64_S32x64x64_S32x64x64_2_2_1_1_0_0.lhsIdx_val_of_single rfl i q
theorem qk_rhs0 (i : S32x64x64.Idx) (q : dot_S32x64x64_S32x64x64_S32x64x64_2_2_1_1_0_0.contr.Idx) :
    (dot_S32x64x64_S32x64x64_S32x64x64_2_2_1_1_0_0.rhsIdx i q 0).val = (i 0).val := by
  unfold DotDims.rhsIdx
  rw [dif_pos (show (0 : Fin S32x64x64.rank) ∈ dot_S32x64x64_S32x64x64_S32x64x64_2_2_1_1_0_0.rhsBatch by decide)]
  rfl
theorem qk_rhs1 (i : S32x64x64.Idx) (q : dot_S32x64x64_S32x64x64_S32x64x64_2_2_1_1_0_0.contr.Idx) :
    (dot_S32x64x64_S32x64x64_S32x64x64_2_2_1_1_0_0.rhsIdx i q 1).val = (i 2).val := by
  unfold DotDims.rhsIdx
  rw [dif_neg (show ¬(1 : Fin S32x64x64.rank) ∈ dot_S32x64x64_S32x64x64_S32x64x64_2_2_1_1_0_0.rhsBatch by decide), dif_pos (show (1 : Fin S32x64x64.rank) ∈ dot_S32x64x64_S32x64x64_S32x64x64_2_2_1_1_0_0.rhsNonContracting by decide)]
  rfl
theorem qk_rhs2 (i : S32x64x64.Idx) (q : dot_S32x64x64_S32x64x64_S32x64x64_2_2_1_1_0_0.contr.Idx) :
    (dot_S32x64x64_S32x64x64_S32x64x64_2_2_1_1_0_0.rhsIdx i q 2).val = (q ⟨0, by decide⟩).val :=
  dot_S32x64x64_S32x64x64_S32x64x64_2_2_1_1_0_0.rhsIdx_val_of_single rfl i q

/-- Per graph `g`, the product of `A g` with the transpose of `B g`: entry (n, m) sums over the lane. -/
theorem bmmT_apply (A B : FVec Ideal S32x64x64 .bf16) (g : Fin 32) (n : Fin 64) (m : Fin 64) :
    matmul dot_S32x64x64_S32x64x64_S32x64x64_2_2_1_1_0_0 none A B (constant S32x64x64 .f32 0x00000000#32) (ix3 g n m)
      = ∑ j : Fin 64, A (ix3 g n j) * B (ix3 g m j) := by
  show FloatOps.matmul dot_S32x64x64_S32x64x64_S32x64x64_2_2_1_1_0_0 none A B _ _ = _
  rw [Ideal.matmul_constant_zero_apply, ← Equiv.sum_comp (contrEquiv1 dot_S32x64x64_S32x64x64_S32x64x64_2_2_1_1_0_0 64 rfl rfl).symm]
  refine Finset.sum_congr rfl fun j _ => ?_
  have hk := contrEquiv1_symm_val dot_S32x64x64_S32x64x64_S32x64x64_2_2_1_1_0_0 64 rfl rfl j
  have el : dot_S32x64x64_S32x64x64_S32x64x64_2_2_1_1_0_0.lhsIdx (ix3 g n m) ((contrEquiv1 dot_S32x64x64_S32x64x64_S32x64x64_2_2_1_1_0_0 64 rfl rfl).symm j) = ix3 g n j := funext fun a => Fin.ext (by
    match a with
    | ⟨0, _⟩ => exact qk_lhs0 _ _
    | ⟨1, _⟩ => exact qk_lhs1 _ _
    | ⟨2, _⟩ => exact (qk_lhs2 _ _).trans hk)
  have er : dot_S32x64x64_S32x64x64_S32x64x64_2_2_1_1_0_0.rhsIdx (ix3 g n m) ((contrEquiv1 dot_S32x64x64_S32x64x64_S32x64x64_2_2_1_1_0_0 64 rfl rfl).symm j) = ix3 g m j := funext fun a => Fin.ext (by
    match a with
    | ⟨0, _⟩ => exact qk_rhs0 _ _
    | ⟨1, _⟩ => exact qk_rhs1 _ _
    | ⟨2, _⟩ => exact (qk_rhs2 _ _).trans hk)
  rw [el, er]

theorem av_lhs0 (i : S32x64x64.Idx) (q : dot_S32x64x64_S32x64x64_S32x64x64_2_1_1_2_0_0.contr.Idx) :
    (dot_S32x64x64_S32x64x64_S32x64x64_2_1_1_2_0_0.lhsIdx i q 0).val = (i 0).val := by
  unfold DotDims.lhsIdx
  rw [dif_pos (show (0 : Fin S32x64x64.rank) ∈ dot_S32x64x64_S32x64x64_S32x64x64_2_1_1_2_0_0.lhsBatch by decide)]
  rfl
theorem av_lhs1 (i : S32x64x64.Idx) (q : dot_S32x64x64_S32x64x64_S32x64x64_2_1_1_2_0_0.contr.Idx) :
    (dot_S32x64x64_S32x64x64_S32x64x64_2_1_1_2_0_0.lhsIdx i q 1).val = (i 1).val := by
  unfold DotDims.lhsIdx
  rw [dif_neg (show ¬(1 : Fin S32x64x64.rank) ∈ dot_S32x64x64_S32x64x64_S32x64x64_2_1_1_2_0_0.lhsBatch by decide), dif_pos (show (1 : Fin S32x64x64.rank) ∈ dot_S32x64x64_S32x64x64_S32x64x64_2_1_1_2_0_0.lhsNonContracting by decide)]
  rfl
theorem av_lhs2 (i : S32x64x64.Idx) (q : dot_S32x64x64_S32x64x64_S32x64x64_2_1_1_2_0_0.contr.Idx) :
    (dot_S32x64x64_S32x64x64_S32x64x64_2_1_1_2_0_0.lhsIdx i q 2).val = (q ⟨0, by decide⟩).val :=
  dot_S32x64x64_S32x64x64_S32x64x64_2_1_1_2_0_0.lhsIdx_val_of_single rfl i q
theorem av_rhs0 (i : S32x64x64.Idx) (q : dot_S32x64x64_S32x64x64_S32x64x64_2_1_1_2_0_0.contr.Idx) :
    (dot_S32x64x64_S32x64x64_S32x64x64_2_1_1_2_0_0.rhsIdx i q 0).val = (i 0).val := by
  unfold DotDims.rhsIdx
  rw [dif_pos (show (0 : Fin S32x64x64.rank) ∈ dot_S32x64x64_S32x64x64_S32x64x64_2_1_1_2_0_0.rhsBatch by decide)]
  rfl
theorem av_rhs1 (i : S32x64x64.Idx) (q : dot_S32x64x64_S32x64x64_S32x64x64_2_1_1_2_0_0.contr.Idx) :
    (dot_S32x64x64_S32x64x64_S32x64x64_2_1_1_2_0_0.rhsIdx i q 1).val = (q ⟨0, by decide⟩).val :=
  dot_S32x64x64_S32x64x64_S32x64x64_2_1_1_2_0_0.rhsIdx_val_of_single rfl i q
theorem av_rhs2 (i : S32x64x64.Idx) (q : dot_S32x64x64_S32x64x64_S32x64x64_2_1_1_2_0_0.contr.Idx) :
    (dot_S32x64x64_S32x64x64_S32x64x64_2_1_1_2_0_0.rhsIdx i q 2).val = (i 2).val := by
  unfold DotDims.rhsIdx
  rw [dif_neg (show ¬(2 : Fin S32x64x64.rank) ∈ dot_S32x64x64_S32x64x64_S32x64x64_2_1_1_2_0_0.rhsBatch by decide), dif_pos (show (2 : Fin S32x64x64.rank) ∈ dot_S32x64x64_S32x64x64_S32x64x64_2_1_1_2_0_0.rhsNonContracting by decide)]
  rfl

/-- Per graph `g`, the product of `A g` with `B g`: entry (n, j) sums over the middle node index. -/
theorem bmm_apply (A B : FVec Ideal S32x64x64 .bf16) (g : Fin 32) (n : Fin 64) (j : Fin 64) :
    matmul dot_S32x64x64_S32x64x64_S32x64x64_2_1_1_2_0_0 none A B (constant S32x64x64 .f32 0x00000000#32) (ix3 g n j)
      = ∑ m : Fin 64, A (ix3 g n m) * B (ix3 g m j) := by
  show FloatOps.matmul dot_S32x64x64_S32x64x64_S32x64x64_2_1_1_2_0_0 none A B _ _ = _
  rw [Ideal.matmul_constant_zero_apply, ← Equiv.sum_comp (contrEquiv1 dot_S32x64x64_S32x64x64_S32x64x64_2_1_1_2_0_0 64 rfl rfl).symm]
  refine Finset.sum_congr rfl fun m _ => ?_
  have hk := contrEquiv1_symm_val dot_S32x64x64_S32x64x64_S32x64x64_2_1_1_2_0_0 64 rfl rfl m
  have el : dot_S32x64x64_S32x64x64_S32x64x64_2_1_1_2_0_0.lhsIdx (ix3 g n j) ((contrEquiv1 dot_S32x64x64_S32x64x64_S32x64x64_2_1_1_2_0_0 64 rfl rfl).symm m) = ix3 g n m := funext fun a => Fin.ext (by
    match a with
    | ⟨0, _⟩ => exact av_lhs0 _ _
    | ⟨1, _⟩ => exact av_lhs1 _ _
    | ⟨2, _⟩ => exact (av_lhs2 _ _).trans hk)
  have er : dot_S32x64x64_S32x64x64_S32x64x64_2_1_1_2_0_0.rhsIdx (ix3 g n j) ((contrEquiv1 dot_S32x64x64_S32x64x64_S32x64x64_2_1_1_2_0_0 64 rfl rfl).symm m) = ix3 g m j := funext fun a => Fin.ext (by
    match a with
    | ⟨0, _⟩ => exact av_rhs0 _ _
    | ⟨1, _⟩ => exact (av_rhs1 _ _).trans hk
    | ⟨2, _⟩ => exact av_rhs2 _ _)
  rw [el, er]

/-- A max-reduction from −∞ over the last axis of an [a, b, c] array at (i, j): the fold of max from −∞ over the last coordinate. -/
theorem max_last3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) := by
  refine (Ideal.multiReduction_maximumf_single src 0xFF800000#32 h hφ hacc (ix2 i j)).trans ?_
  show (Finset.univ : Finset (Fin c)).fold max _ (src ∘ h.lift (ix2 i j)) = _
  refine congrArg (fun f => (Finset.univ : Finset (Fin c)).fold max (Ideal.ofBits .f32 0xFF800000#32) f) (funext fun k => ?_)
  refine congrArg src (funext fun ax => Fin.ext ?_)
  match ax with
  | ⟨0, _⟩ => rfl
  | ⟨1, _⟩ => rfl
  | ⟨2, _⟩ => rfl

/-! ## One attention head of a block -/

/-- The scaled scores, the softmax and the context of one head, from the head's query, key and value lanes of one
    graph's 64 nodes. -/
def sc (pq pk : Fin 64 → Fin 64 → EReal) (n m : Fin 64) : EReal := (∑ j : Fin 64, pq n j * pk m j) * Spec.c8
def rmx (pq pk : Fin 64 → Fin 64 → EReal) (n : Fin 64) : EReal :=
  max Spec.ninf ((Finset.univ : Finset (Fin 64)).fold max Spec.ninf (fun m => sc pq pk n m))
def exx (pq pk : Fin 64 → Fin 64 → EReal) (n m : Fin 64) : EReal := Ideal.exp (sc pq pk n m - rmx pq pk n)
def att (pq pk : Fin 64 → Fin 64 → EReal) (n m : Fin 64) : EReal := Ideal.div (exx pq pk n m) (∑ m' : Fin 64, exx pq pk n m')
def cx1 (pq pk pv : Fin 64 → Fin 64 → EReal) (n j : Fin 64) : EReal := ∑ m : Fin 64, att pq pk n m * pv m j

/-- The scaled scores of regrouped query and key lanes at (g, n, m). -/
theorem scores_apply (Q3 K3 : FVec Ideal S32x64x64 .bf16) (g : Fin 32) (n m : Fin 64) :
    mulf (matmul dot_S32x64x64_S32x64x64_S32x64x64_2_2_1_1_0_0 none Q3 K3 (constant S32x64x64 .f32 0x00000000#32))
        (broadcast S32x64x64 (FloatOps.ofBits .f32 0x3E000000#32)) (ix3 g n m)
      = (∑ j : Fin 64, Q3 (ix3 g n j) * K3 (ix3 g m j)) * Spec.c8 := by
  rw [mulf_apply, bmmT_apply]; rfl

/-- The softmax along the last axis of a [32, 64, 64] array of scores at (g, n, m): the row maximum (a max-reduction
    from −∞, once more against −∞, put back along the row) is subtracted, the exponentials are divided by their row sum. -/
theorem softmax_apply (S : FVec Ideal S32x64x64 .f32) (hφ : FKind.Formats .f32)
    (hacc1 : (0xFF800000#32 : BitVec 32) = 0xFF800000#32)
    (hacc0 : (0x00000000#32 : BitVec 32) = 0x00000000#32) (g : Fin 32) (n m : Fin 64) :
    divf (exp (subf S (broadcastTo S32x64x64 (shapeCast S32x64x1 (maximumf (broadcast S32x64 (FloatOps.ofBits .f32 0xFF800000#32)) (multiReduction .maximumf [2] S32x64 S 0xFF800000#32 reduces_S32x64x64_S32x64 hφ hacc1)) shapeCasts_S32x64_S32x64x1) broadcasts_S32x64x1_S32x64x64)))
        (broadcastTo S32x64x64 (shapeCast S32x64x1 (multiReduction .add [2] S32x64 (exp (subf S (broadcastTo S32x64x64 (shapeCast S32x64x1 (maximumf (broadcast S32x64 (FloatOps.ofBits .f32 0xFF800000#32)) (multiReduction .maximumf [2] S32x64 S 0xFF800000#32 reduces_S32x64x64_S32x64 hφ hacc1)) shapeCasts_S32x64_S32x64x1) broadcasts_S32x64x1_S32x64x64))) 0x00000000#32 reduces_S32x64x64_S32x64 hφ hacc0) shapeCasts_S32x64_S32x64x1) broadcasts_S32x64x1_S32x64x64)
        (ix3 g n m)
      = Ideal.div (Ideal.exp (S (ix3 g n m) - max Spec.ninf ((Finset.univ : Finset (Fin 64)).fold max Spec.ninf (fun m => S (ix3 g n m)))))
          (∑ m' : Fin 64, Ideal.exp (S (ix3 g n m') - max Spec.ninf ((Finset.univ : Finset (Fin 64)).fold max Spec.ninf (fun m => S (ix3 g n m))))) := by
  have hM : ∀ m : Fin 64, (broadcastTo S32x64x64 (shapeCast S32x64x1 (maximumf (broadcast S32x64 (FloatOps.ofBits .f32 0xFF800000#32)) (multiReduction .maximumf [2] S32x64 S 0xFF800000#32 reduces_S32x64x64_S32x64 hφ hacc1)) shapeCasts_S32x64_S32x64x1) broadcasts_S32x64x1_S32x64x64) (ix3 g n m)
      = max Spec.ninf ((Finset.univ : Finset (Fin 64)).fold max Spec.ninf (fun m => S (ix3 g n m))) := fun m => by
    rw [LibLayout.broadcastTo_ab1_abc_apply, LibLayout.shapeCast_ab_ab1_apply, maximumf_apply, max_last3_apply]; rfl
  have hE : ∀ m : Fin 64, (exp (subf S (broadcastTo S32x64x64 (shapeCast S32x64x1 (maximumf (broadcast S32x64 (FloatOps.ofBits .f32 0xFF800000#32)) (multiReduction .maximumf [2] S32x64 S 0xFF800000#32 reduces_S32x64x64_S32x64 hφ hacc1)) shapeCasts_S32x64_S32x64x1) broadcasts_S32x64x1_S32x64x64))) (ix3 g n m)
      = Ideal.exp (S (ix3 g n m) - max Spec.ninf ((Finset.univ : Finset (Fin 64)).fold max Spec.ninf (fun m => S (ix3 g n m)))) := fun m => by
    show FloatOps.exp (S (ix3 g n m) - (broadcastTo S32x64x64 (shapeCast S32x64x1 (maximumf (broadcast S32x64 (FloatOps.ofBits .f32 0xFF800000#32)) (multiReduction .maximumf [2] S32x64 S 0xFF800000#32 reduces_S32x64x64_S32x64 hφ hacc1)) shapeCasts_S32x64_S32x64x1) broadcasts_S32x64x1_S32x64x64) (ix3 g n m)) = _
    rw [hM]; rfl
  rw [divf_apply, hE, LibLayout.broadcastTo_ab1_abc_apply, LibLayout.shapeCast_ab_ab1_apply, LibAxisSums.sum_last3_apply]
  simp only [hE]

/-- A head's stored [2048, 64] result at row `gb·64 + n`, lane `j`, from three [2048, 64] column blocks whose rows of
    graph `gb` are `pq`, `pk`, `pv`: the rows are regrouped by graph, each graph's 64×64 scores are scaled, softmaxed
    along the key axis and multiplied into the values. -/
theorem head_apply (q k v : Vec Ideal S2048x64 .bf16) (gb : Fin 32) (pq pk pv : Fin 64 → Fin 64 → EReal)
    (hq : ∀ n j, q (ix2 (brow gb n) j) = pq n j) (hk : ∀ n j, k (ix2 (brow gb n) j) = pk n j)
    (hv : ∀ n j, v (ix2 (brow gb n) j) = pv n j) (n j : Fin 64) :
    k0_pay6 (F := Ideal) q k v (ix2 (brow gb n) j) = cx1 pq pk pv n j := by
  unfold k0_pay6 cx1 att exx rmx sc
  simp only [shapeCast_self]
  rw [truncf_apply, LibLayout.shapeCast_abc_nc_apply _ shapeCasts_S32x64x64_S2048x64 gb n j (brow gb n) rfl, bmm_apply]
  refine Finset.sum_congr rfl fun m _ => ?_
  rw [LibLayout.shapeCast_nc_abc_apply v shapeCasts_S2048x64_S32x64x64 gb m j (brow gb m) rfl, hv, truncf_apply, softmax_apply]
  simp only [scores_apply, fun n j => LibLayout.shapeCast_nc_abc_apply q shapeCasts_S2048x64_S32x64x64 gb n j (brow gb n) rfl,
    fun n j => LibLayout.shapeCast_nc_abc_apply k shapeCasts_S2048x64_S32x64x64 gb n j (brow gb n) rfl, hq, hk]

/-! ## The output projection, the gate and the pooled sum of a block -/

/-- The block's stored [32, 512] result at (gb, d), from a context array whose rows of graph `gb` are `cx`: the output
    projection plus bias, a gate per node (the logistic of the row's product with the gate weights, plus the gate bias),
    and the gated rows summed over the graph's 64 nodes. -/
theorem pay2_apply (C : Vec Ideal S2048x512 .bf16) (x3 : Vec Ideal S512x512 .bf16) (x4 x5 : Vec Ideal S1x512 .f32)
    (x6 : Vec Ideal S1x1 .f32) (gb : Fin 32) (cx : Fin 64 → Fin 512 → EReal)
    (hC : ∀ n c, C (ix2 (brow gb n) c) = cx n c) (d : Fin 512) :
    k0_pay2 (F := Ideal) C x3 x4 x5 x6 (ix2 gb d)
      = ∑ n : Fin 64, ((∑ c : Fin 512, cx n c * x3 (ix2 c d)) + x4 (ix2 0 d))
          * Ideal.logistic ((∑ d' : Fin 512, ((∑ c : Fin 512, cx n c * x3 (ix2 c d')) + x4 (ix2 0 d')) * x5 (ix2 0 d')) + x6 (ix2 0 0)) := by
  unfold k0_pay2
  simp only [shapeCast_self, dotOut_eq]
  rw [LibAxisSums.sum_mid3_apply]
  refine Finset.sum_congr rfl fun n _ => ?_
  rw [LibLayout.shapeCast_nc_abc_apply _ shapeCasts_S2048x512_S32x64x512 gb n d (brow gb n) rfl, mulf_apply,
    LibColumnBroadcast.broadcastTo_a1_ab_apply]
  have hAO : ∀ e : Fin 512, addf (F := Ideal) (matmul (DotDims.plain 2048 512 512) none C x3 (constant S2048x512 .f32 0x00000000#32))
      (broadcastTo S2048x512 x4 broadcasts_S1x512_S2048x512) (ix2 (brow gb n) e)
      = (∑ c : Fin 512, cx n c * x3 (ix2 c e)) + x4 (ix2 0 e) := fun e => by
    rw [addf_apply, matmul_plain_zero_apply, broadcastTo_1b_ab_apply]; simp only [hC]
  refine congrArg₂ (· * ·) (hAO d) (congrArg Ideal.logistic ?_)
  rw [addf_apply, LibColumnCast.shapeCast_a_a1_apply, LibAxisSums.sum_last2_apply, broadcastTo_1b_ab_apply]
  refine congrArg (· + x6 (ix2 0 0)) (Finset.sum_congr rfl fun d' _ => ?_)
  rw [mulf_apply, broadcastTo_1b_ab_apply]
  exact congrArg (· * x5 (ix2 0 d')) (hAO d')

end Cert.KValue
end
-- ==== Proof.KCtx.lean ====
/-
  The context scratch as one array.  The body's eight heads are one function of a head's three column blocks of the
  projection; the [2048, 512] context it assembles has, in column `c`, lane `c mod 64` of head `c / 64`.
-/
import proofs.«105360_j10771777978557_2_alg».proof.Proof.Gen.KernelIdeal.Skeleton
import Idealize.ShloMosaic.Lib.ValueIdx

noncomputable section

namespace Cert.KValue

open Cert.KernelIdeal Cert.KernelIdeal.Gen Idealize.ShloMosaic Idealize.ShloMosaic.ValueIdx

variable {F : FTy → Type} [FloatOps F]

/-! ## The eight heads are one function

The body computes head after head with the same operations; read as functions of a head's three loaded column blocks,
each head's stored value is the one function `k0_pay6` (the second head's, which the body's text happens to hold whole). -/
theorem head0_eq (a b c : Vec F S2048x64 .bf16) : k0_pay5 (k0_pay4 a b c) = k0_pay6 a b c := rfl
theorem head2_eq (a b c : Vec F S2048x64 .bf16) : k0_pay9 (k0_pay7 a) (k0_pay8 b) c = k0_pay6 a b c := rfl
theorem head3_eq (a b c : Vec F S2048x64 .bf16) : k0_pay13 (k0_pay10 c) (k0_pay11 a b) (k0_pay12 a b) = k0_pay6 a b c := rfl
theorem head4_eq (a b c : Vec F S2048x64 .bf16) : k0_pay14 a b c = k0_pay6 a b c := rfl
theorem head5_eq (a b c : Vec F S2048x64 .bf16) : k0_pay16 (k0_pay15 a) b c = k0_pay6 a b c := rfl
theorem head6_eq (a b c : Vec F S2048x64 .bf16) : k0_pay20 (k0_pay17 c) (k0_pay18 a b) (k0_pay19 a b) = k0_pay6 a b c := rfl
theorem head7_eq (a b c : Vec F S2048x64 .bf16) : k0_pay1 (k0_pay21 a b c) = k0_pay6 a b c := rfl

/-- The 64 columns from `off` of a [2048, 1536] array. -/
def cols {α : Type} (P : S2048x1536.Idx → α) (off : ℕ) (hoff : off + 64 ≤ 1536) : S2048x64.Idx → α :=
  fun x => P (ix2 ⟨(x 0).val, idx2_lt0 x⟩ ⟨off + (x 1).val, Nat.lt_of_lt_of_le (Nat.add_lt_add_left (idx2_lt1 x) off) hoff⟩)

/-- Head `h`'s [2048, 64] context from the projection `P`: the one head function of `P`'s query, key and value columns of that head. -/
def hdT (P : S2048x1536.Idx → Elt F .bf16) (h : Fin 8) : S2048x64.Idx → Elt F .bf16 :=
  k0_pay6 (cols P (64 * h.val) (by have := h.isLt; omega)) (cols P (512 + 64 * h.val) (by have := h.isLt; omega))
    (cols P (1024 + 64 * h.val) (by have := h.isLt; omega))

/-- The assembled [2048, 512] context: column `c` belongs to head `c / 64`, lane `c mod 64`. -/
def ctxT (P : S2048x1536.Idx → Elt F .bf16) : S2048x512.Idx → Elt F .bf16 := fun y =>
  hdT P ⟨(y 1).val / 64, by have h : (y 1).val < 512 := (y 1).isLt; omega⟩
    (ix2 (y 0) ⟨(y 1).val % 64, Nat.mod_lt _ (by decide)⟩)

/-- Through the rectangle of head `h`'s 64 columns, the assembled context is head `h`'s. -/
theorem ctxT_emb (P : S2048x1536.Idx → Elt F .bf16) (h : Fin 8)
    (inb : ∀ a, (![0, 64 * h.val] : Fin 2 → ℕ) a + S2048x64.size a ≤ S2048x512.size a) (x : S2048x64.Idx) :
    ctxT P ((Rect.unit (s := S2048x512) ![0, 64 * h.val] S2048x64.size inb).emb x) = hdT P h x := by
  have hx : (x 1).val < 64 := (x 1).isLt
  have e1 : (((Rect.unit (s := S2048x512) ![0, 64 * h.val] S2048x64.size inb).emb x) 1).val = 64 * h.val + 1 * (x 1).val := rfl
  have e0 : (((Rect.unit (s := S2048x512) ![0, 64 * h.val] S2048x64.size inb).emb x) 0).val = 0 + 1 * (x 0).val := rfl
  unfold ctxT
  have eh : (⟨(((Rect.unit (s := S2048x512) ![0, 64 * h.val] S2048x64.size inb).emb x) 1).val / 64,
      by have h' : (((Rect.unit (s := S2048x512) ![0, 64 * h.val] S2048x64.size inb).emb x) 1).val < 512 := (((Rect.unit (s := S2048x512) ![0, 64 * h.val] S2048x64.size inb).emb x) 1).isLt; omega⟩ : Fin 8) = h :=
    Fin.ext (by show _ / 64 = h.val; rw [e1]; omega)
  rw [eh]
  refine congrArg (hdT P h) (funext fun a => Fin.ext ?_)
  match a with
  | ⟨0, _⟩ => show (((Rect.unit (s := S2048x512) ![0, 64 * h.val] S2048x64.size inb).emb x) 0).val = (x 0).val; rw [e0]; omega
  | ⟨1, _⟩ => show (((Rect.unit (s := S2048x512) ![0, 64 * h.val] S2048x64.size inb).emb x) 1).val % 64 = (x 1).val; rw [e1]; omega

end Cert.KValue

end
-- ==== Proof.KPieces.lean ====
/-
  What the kernel body leaves in the output block's staging buffer, as one term: the readout payload of the assembled
  context of the block's projection.  The projection scratch is filled by one store and read back 64 columns at a time;
  the context scratch is filled by the eight heads' stores, which tile its columns, and read back whole.
-/
import proofs.«105360_j10771777978557_2_alg».proof.Proof.Gen.KernelIdeal.Value
import proofs.«105360_j10771777978557_2_alg».proof.Proof.KCtx

set_option maxRecDepth 16384

noncomputable section

namespace Cert.KValue

open Cert.KernelIdeal Cert.KernelIdeal.Gen Idealize.ShloMosaic Idealize.ShloMosaic.ValueIdx Idealize.ShloMosaic.TcCoe Idealize.ShloMosaic.Tactic Idealize.SL.Sem

variable {F : FTy → Type} [FloatOps F]

/-- A load of 64 columns from `off` of the projection scratch, after the one store that filled it with `P`, reads those columns of `P`. -/
theorem readCov_cols (v : View sig .tc .vmem S2048x1536 .bf16) (P : S2048x1536.Idx → Elt F .bf16) (off : ℕ) (hoff : off + 64 ≤ 1536)
    (inb0 : ∀ a, (![0, 0] : Fin 2 → ℕ) a + S2048x1536.size a ≤ S2048x1536.size a)
    (inb : ∀ a, (![0, off] : Fin 2 → ℕ) a + S2048x64.size a ≤ S2048x1536.size a) :
    v.readCov [(⟨Rect.unit ![0, 0] S2048x1536.size inb0, P⟩ : View.Piece (Elt F) S2048x1536 .bf16)]
        (Rect.unit (s := S2048x1536) ![0, off] S2048x64.size inb).toLoadRect
      = cols P off hoff := by
  have hz : (![0, 0] : Fin 2 → ℕ) = fun _ => 0 := funext fun a => by fin_cases a <;> rfl
  rw [View.readCov_eq_canon', View.canon_unit_zero hz inb0]
  funext x
  refine congrArg P (funext fun a => Fin.ext ?_)
  match a with
  | ⟨0, _⟩ => show 0 + 1 * (x 0).val = (x 0).val; omega
  | ⟨1, _⟩ => show off + 1 * (x 1).val = off + (x 1).val; omega

/-! ## What the body leaves in the output's staging buffer -/

/-- The body's one store to the output block holds the readout of the assembled context of the block's projection:
    the projection scratch is filled by one store and read back 64 columns at a time; the context scratch is filled by
    the eight heads' stores, which tile its columns, and read back whole. -/
theorem out7_eq (c : Dev nD) (i : grid0.Coords) (arg1 : Memref sig .tc .vmem S32x64x512 .bf16) (harg1 : arg1.IsWhole) (arg2 : Memref sig .tc .vmem S512x1536 .bf16) (harg2 : arg2.IsWhole) (arg3 : Memref sig .tc .vmem S1x1536 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S32x512 .f32) (harg8 : arg8.IsWhole) (arg9 : Memref sig .tc .vmem S2048x1536 .bf16) (harg9 : arg9.IsWhole) (arg10 : Memref sig .tc .vmem S2048x512 .bf16) (harg10 : arg10.IsWhole) (x0 : Vec F S32x64x512 .bf16) (x1 : Vec F S512x1536 .bf16) (x2 : Vec F S1x1536 .f32) (x3 : Vec F S512x512 .bf16) (x4 : Vec F S1x512 .f32) (x5 : Vec F S1x512 .f32) (x6 : Vec F S1x1 .f32) :
    out0_A_7 c i arg1 harg1 arg2 harg2 arg3 harg3 arg4 harg4 arg5 harg5 arg6 harg6 arg7 harg7 arg8 harg8 arg9 harg9 arg10 harg10 x0 x1 x2 x3 x4 x5 x6 = k0_pay2 (ctxT (k0_pay3 x0 x1 x2)) x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_run_names
  have hz2 : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz2]
  simp only [View.readAt_eq_ld, harg1.read_unread, harg2.read_unread, harg3.read_unread, harg4.read_unread, harg5.read_unread,
    harg6.read_unread, harg7.read_unread, View.ld_unit_zero (S := S32x64x512) hz3, View.ld_unit_zero (S := S512x1536) hz2,
    View.ld_unit_zero (S := S1x1536) hz2, View.ld_unit_zero (S := S512x512) hz2, View.ld_unit_zero (S := S1x512) hz2,
    View.ld_unit_zero (S := S1x1) hz2]
  generalize k0_pay3 x0 x1 x2 = P
  simp only [readCov_cols arg9.view P 0 (by norm_num), readCov_cols arg9.view P 512 (by norm_num), readCov_cols arg9.view P 1024 (by norm_num), readCov_cols arg9.view P 64 (by norm_num), readCov_cols arg9.view P 576 (by norm_num), readCov_cols arg9.view P 1088 (by norm_num), readCov_cols arg9.view P 128 (by norm_num), readCov_cols arg9.view P 640 (by norm_num), readCov_cols arg9.view P 1152 (by norm_num), readCov_cols arg9.view P 192 (by norm_num), readCov_cols arg9.view P 704 (by norm_num), readCov_cols arg9.view P 1216 (by norm_num), readCov_cols arg9.view P 256 (by norm_num), readCov_cols arg9.view P 768 (by norm_num), readCov_cols arg9.view P 1280 (by norm_num), readCov_cols arg9.view P 320 (by norm_num), readCov_cols arg9.view P 832 (by norm_num), readCov_cols arg9.view P 1344 (by norm_num), readCov_cols arg9.view P 384 (by norm_num), readCov_cols arg9.view P 896 (by norm_num), readCov_cols arg9.view P 1408 (by norm_num), readCov_cols arg9.view P 448 (by norm_num), readCov_cols arg9.view P 960 (by norm_num), readCov_cols arg9.view P 1472 (by norm_num)]
  refine congrArg (fun C => k0_pay2 C x3 x4 x5 x6) ?_
  rw [View.readCov_eq_canon']
  show View.ld (View.canon _) (Rect.unit (s := S2048x512) ![0, 0] S2048x512.size inb_S2048x512_S2048x512_0_0) = _
  rw [View.ld_unit_zero hz2]
  funext y
  refine View.canon_apply_of_pieces (ctxT P) _ ?_ y (View.cover_of_tiledL (s := S2048x512) _ S2048x64.size (by sl_kernel_rfl) y)
  intro p hp
  simp only [List.mem_cons, List.not_mem_nil, or_false] at hp
  rcases hp with rfl | rfl | rfl | rfl | rfl | rfl | rfl | rfl
  · intro x; dsimp only; rw [head7_eq]; exact (ctxT_emb P 7 _ x).symm
  · intro x; dsimp only; rw [head6_eq]; exact (ctxT_emb P 6 _ x).symm
  · intro x; dsimp only; rw [head5_eq]; exact (ctxT_emb P 5 _ x).symm
  · intro x; dsimp only; rw [head4_eq]; exact (ctxT_emb P 4 _ x).symm
  · intro x; dsimp only; rw [head3_eq]; exact (ctxT_emb P 3 _ x).symm
  · intro x; dsimp only; rw [head2_eq]; exact (ctxT_emb P 2 _ x).symm
  · intro x; dsimp only; exact (ctxT_emb P 1 _ x).symm
  · intro x; dsimp only; rw [head0_eq]; exact (ctxT_emb P 0 _ x).symm

end Cert.KValue
end
-- ==== Proof.KBlock.lean ====
/-
  One block's stored result is the specification's readout of each of its 32 graphs: the readout payload applied to the
  assembled context of the block's projection, read at (gb, d), is `Spec.out` of graph `gb`'s rows with the block's
  weight operands (the transposed projection weights, the bias rows, the gate row and the gate bias).
-/
import proofs.«105360_j10771777978557_2_alg».proof.Proof.KOps
import proofs.«105360_j10771777978557_2_alg».proof.Proof.KPieces

set_option maxRecDepth 16384

noncomputable section

namespace Cert.KValue

open Cert.KernelIdeal Cert.KernelIdeal.Gen Idealize.ShloMosaic Idealize.ShloMosaic.ValueIdx
open scoped BigOperators

/-- The assembled context at row `gb·64 + n`, column `c` is the specification's context of graph `gb`: column `c` is
    lane `c mod 64` of head `c / 64`, whose query, key and value columns of the projection are the specification's
    `proj` at `qcol`, `kcol`, `vcol`. -/
theorem ctxT_apply (x0 : Vec Ideal S32x64x512 .bf16) (x1 : Vec Ideal S512x1536 .bf16) (x2 : Vec Ideal S1x1536 .f32)
    (gb : Fin 32) (n : Fin 64) (c : Fin 512) :
    ctxT (F := Ideal) (k0_pay3 x0 x1 x2) (ix2 (brow gb n) c)
      = Spec.ctx (fun n d => x0 (ix3 gb n d)) (fun e d => x1 (ix2 d e)) (fun e => x2 (ix2 0 e)) n c := by
  show k0_pay6 (F := Ideal) (cols (k0_pay3 x0 x1 x2) (64 * (Spec.hd c).val) _) (cols (k0_pay3 x0 x1 x2) (512 + 64 * (Spec.hd c).val) _)
      (cols (k0_pay3 x0 x1 x2) (1024 + 64 * (Spec.hd c).val) _) (ix2 (brow gb n) (Spec.lane c)) = _
  rw [head_apply _ _ _ gb
    (fun n j => Spec.proj (fun n d => x0 (ix3 gb n d)) (fun e d => x1 (ix2 d e)) (fun e => x2 (ix2 0 e)) n (Spec.qcol (Spec.hd c) j))
    (fun n j => Spec.proj (fun n d => x0 (ix3 gb n d)) (fun e d => x1 (ix2 d e)) (fun e => x2 (ix2 0 e)) n (Spec.kcol (Spec.hd c) j))
    (fun n j => Spec.proj (fun n d => x0 (ix3 gb n d)) (fun e d => x1 (ix2 d e)) (fun e => x2 (ix2 0 e)) n (Spec.vcol (Spec.hd c) j))
    (fun n j => pay3_apply x0 x1 x2 gb n (Spec.qcol (Spec.hd c) j))
    (fun n j => pay3_apply x0 x1 x2 gb n (Spec.kcol (Spec.hd c) j))
    (fun n j => pay3_apply x0 x1 x2 gb n (Spec.vcol (Spec.hd c) j)) n (Spec.lane c)]
  rfl

/-- The block's stored result at (gb, d) is the specification's readout of graph `gb`. -/
theorem blk_eq (x0 : Vec Ideal S32x64x512 .bf16) (x1 : Vec Ideal S512x1536 .bf16) (x2 : Vec Ideal S1x1536 .f32)
    (x3 : Vec Ideal S512x512 .bf16) (x4 x5 : Vec Ideal S1x512 .f32) (x6 : Vec Ideal S1x1 .f32) (gb : Fin 32) (d : Fin 512) :
    k0_pay2 (F := Ideal) (ctxT (k0_pay3 x0 x1 x2)) x3 x4 x5 x6 (ix2 gb d)
      = Spec.out (fun n dd => x0 (ix3 gb n dd)) (fun e dd => x1 (ix2 dd e)) (fun e => x2 (ix2 0 e))
          (fun e c => x3 (ix2 c e)) (fun e => x4 (ix2 0 e)) (fun dd => x5 (ix2 0 dd)) (x6 (ix2 0 0)) d := by
  rw [pay2_apply _ x3 x4 x5 x6 gb
    (Spec.ctx (fun n d => x0 (ix3 gb n d)) (fun e d => x1 (ix2 d e)) (fun e => x2 (ix2 0 e)))
    (fun n c => ctxT_apply x0 x1 x2 gb n c) d]
  rfl

end Cert.KValue

end
-- ==== Proof.KWindows.lean ====
/-
  The kernel's input windows read at an index: each window's block at a grid point is a block of an array the host
  operations before the region wrote from an argument (a reshape, a transpose, a change of format that is the identity
  on the extended reals), so each block element is one element of an argument array.
-/
import proofs.«105360_j10771777978557_2_alg».proof.Proof.Gen.KernelIdeal.Value
import proofs.«105360_j10771777978557_2_alg».proof.Proof.Spec
import proofs.«105360_j10771777978557_2_alg».proof.Proof.LibLayout
import Idealize.ShloMosaic.Lib.ValueLayout
import Idealize.ShloMosaic.Lib.StableHlo.Run

noncomputable section

namespace Cert.KValue

open Cert.KernelIdeal Cert.KernelIdeal.Gen Idealize.ShloMosaic Idealize.ShloMosaic.TcCoe Idealize.SL.Sem
open Idealize.ShloMosaic.ValueIdx Idealize.ShloMosaic.StableHlo

/-- The windows' index maps over the 32 grid points: window 0 moves along its first axis with the point, the others
    stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (m : (ℓ : Loc nD τ sig) → Buf (Elt Ideal) ℓ) (c : Dev nD) (t : Fin cfg0.N)

/-- The array window 0 stages: the input reshaped to 1024 × 64 × 512 (the change of format is the identity). -/
theorem V_main_v1 : @Eq (FVec Ideal S1024x64x512 .bf16) (V m c main_v1)
    (truncf (F := Ideal) .bf16
      (shapeCast S1024x64x512 (m ((c : Thread nD τ).loc main_arg0) : FVec Ideal S65536x512 .f32)
        shapeCasts_S65536x512_S1024x64x512) bitsLt_bf16_f32) := by
  dsimp only [Gen.V, Gen.hostOps0]
  after_results
  rfl

theorem iblk0_apply (gb : Fin 32) (n : Fin 64) (dd : Fin 512) (g : Fin 1024) (hg : g.val = t.val * 32 + gb.val) :
    iblk (F := Ideal) m c 0 t (ix3 gb n dd) = m ((c : Thread nD τ).loc main_arg0) (ix2 (Cert.Spec.row g n) dd) := by
  show V m c main_v1 (((cfg0.win 0).blk t).view.emb (ix3 gb n dd)) = _
  have hi : ((cfg0.win 0).blk t).view.emb (ix3 gb n dd) = ix3 g n dd := by
    funext a; apply Fin.ext
    obtain ⟨e0, e1, e2, _⟩ := idx_facts t
    match a with
    | ⟨0, _⟩ => show win0_0.index t (0 : Fin 3) * 32 + 1 * gb.val = g.val; omega
    | ⟨1, _⟩ => show win0_0.index t (1 : Fin 3) * 64 + 1 * n.val = n.val; omega
    | ⟨2, _⟩ => show win0_0.index t (2 : Fin 3) * 512 + 1 * dd.val = dd.val; omega
  rw [hi, V_main_v1, truncf_apply]
  exact Cert.LibLayout.shapeCast_nc_abc_apply _ _ g n dd (Cert.Spec.row g n) rfl

/-- The array window 1 stages: the packed projection weights transposed. -/
theorem V_main_v3 : @Eq (FVec Ideal S512x1536 .bf16) (V m c main_v3)
    (truncf (F := Ideal) .bf16
      (transpose S512x1536 [1, 0] (m ((c : Thread nD τ).loc main_arg2) : FVec Ideal S1536x512 .f32)
        transposes_S1536x512_S512x1536_1_0) bitsLt_bf16_f32) := by
  dsimp only [Gen.V, Gen.hostOps0]
  after_results

theorem iblk1_apply (dd : Fin 512) (e : Fin 1536) :
    iblk (F := Ideal) m c 1 t (ix2 dd e) = m ((c : Thread nD τ).loc main_arg2) (ix2 e dd) := by
  show V m c main_v3 (((cfg0.win 1).blk t).view.emb (ix2 dd e)) = _
  have hi : ((cfg0.win 1).blk t).view.emb (ix2 dd e) = ix2 dd e := by
    funext a; apply Fin.ext
    obtain ⟨_, _, _, e0, e1, _⟩ := idx_facts t
    match a with
    | ⟨0, _⟩ => show win0_1.index t (0 : Fin 2) * 512 + 1 * dd.val = dd.val; omega
    | ⟨1, _⟩ => show win0_1.index t (1 : Fin 2) * 1536 + 1 * e.val = e.val; omega
  rw [hi, V_main_v3, truncf_apply]
  exact transpose_ix2_apply _ _ dd e

/-- The array window 2 stages: the packed projection bias as one row. -/
theorem V_main_v4 : @Eq (FVec Ideal S1x1536 .f32) (V m c main_v4)
    (shapeCast S1x1536 (m ((c : Thread nD τ).loc main_arg3) : FVec Ideal S1536 .f32) shapeCasts_S1536_S1x1536) := by
  dsimp only [Gen.V, Gen.hostOps0]
  after_results
  rfl

theorem iblk2_apply (e : Fin 1536) :
    iblk (F := Ideal) m c 2 t (ix2 (0 : Fin 1) e) = m ((c : Thread nD τ).loc main_arg3) (ix1 e) := by
  show V m c main_v4 (((cfg0.win 2).blk t).view.emb (ix2 (0 : Fin 1) e)) = _
  have hi : ((cfg0.win 2).blk t).view.emb (ix2 (0 : Fin 1) e) = ix2 (0 : Fin 1) e := by
    funext a; apply Fin.ext
    obtain ⟨_, _, _, _, _, e0, e1, _⟩ := idx_facts t
    match a with
    | ⟨0, _⟩ => show win0_2.index t (0 : Fin 2) * 1 + 1 * (0 : Fin 1).val = (0 : Fin 1).val; omega
    | ⟨1, _⟩ => show win0_2.index t (1 : Fin 2) * 1536 + 1 * e.val = e.val; omega
  rw [hi, V_main_v4]
  exact shapeCast_a_1a_apply _ _ (0 : Fin 1) e

/-- The array window 3 stages: the output projection weights transposed. -/
theorem V_main_v6 : @Eq (FVec Ideal S512x512 .bf16) (V m c main_v6)
    (truncf (F := Ideal) .bf16
      (transpose S512x512 [1, 0] (m ((c : Thread nD τ).loc main_arg4) : FVec Ideal S512x512 .f32)
        transposes_S512x512_S512x512_1_0) bitsLt_bf16_f32) := by
  dsimp only [Gen.V, Gen.hostOps0]
  after_results

theorem iblk3_apply (cc e : Fin 512) :
    iblk (F := Ideal) m c 3 t (ix2 cc e) = m ((c : Thread nD τ).loc main_arg4) (ix2 e cc) := by
  show V m c main_v6 (((cfg0.win 3).blk t).view.emb (ix2 cc e)) = _
  have hi : ((cfg0.win 3).blk t).view.emb (ix2 cc e) = ix2 cc e := by
    funext a; apply Fin.ext
    obtain ⟨_, _, _, _, _, _, _, e0, e1, _⟩ := idx_facts t
    match a with
    | ⟨0, _⟩ => show win0_3.index t (0 : Fin 2) * 512 + 1 * cc.val = cc.val; omega
    | ⟨1, _⟩ => show win0_3.index t (1 : Fin 2) * 512 + 1 * e.val = e.val; omega
  rw [hi, V_main_v6, truncf_apply]
  exact transpose_ix2_apply _ _ cc e

/-- The array window 4 stages: the output projection bias as one row. -/
theorem V_main_v7 : @Eq (FVec Ideal S1x512 .f32) (V m c main_v7)
    (shapeCast S1x512 (m ((c : Thread nD τ).loc main_arg5) : FVec Ideal S512 .f32) shapeCasts_S512_S1x512) := by
  dsimp only [Gen.V, Gen.hostOps0]
  after_results
  rfl

theorem iblk4_apply (e : Fin 512) :
    iblk (F := Ideal) m c 4 t (ix2 (0 : Fin 1) e) = m ((c : Thread nD τ).loc main_arg5) (ix1 e) := by
  show V m c main_v7 (((cfg0.win 4).blk t).view.emb (ix2 (0 : Fin 1) e)) = _
  have hi : ((cfg0.win 4).blk t).view.emb (ix2 (0 : Fin 1) e) = ix2 (0 : Fin 1) e := by
    funext a; apply Fin.ext
    obtain ⟨_, _, _, _, _, _, _, _, _, e0, e1, _⟩ := idx_facts t
    match a with
    | ⟨0, _⟩ => show win0_4.index t (0 : Fin 2) * 1 + 1 * (0 : Fin 1).val = (0 : Fin 1).val; omega
    | ⟨1, _⟩ => show win0_4.index t (1 : Fin 2) * 512 + 1 * e.val = e.val; omega
  rw [hi, V_main_v7]
  exact shapeCast_a_1a_apply _ _ (0 : Fin 1) e

/-- Window 5 stages the gate's weight row itself: no host operation writes it. -/
theorem iblk5_apply (dd : Fin 512) :
    iblk (F := Ideal) m c 5 t (ix2 (0 : Fin 1) dd) = m ((c : Thread nD τ).loc main_arg6) (ix2 (0 : Fin 1) dd) := by
  show V m c main_arg6 (((cfg0.win 5).blk t).view.emb (ix2 (0 : Fin 1) dd)) = _
  have hi : ((cfg0.win 5).blk t).view.emb (ix2 (0 : Fin 1) dd) = ix2 (0 : Fin 1) dd := by
    funext a; apply Fin.ext
    obtain ⟨_, _, _, _, _, _, _, _, _, _, _, e0, e1, _⟩ := idx_facts t
    match a with
    | ⟨0, _⟩ => show win0_5.index t (0 : Fin 2) * 1 + 1 * (0 : Fin 1).val = (0 : Fin 1).val; omega
    | ⟨1, _⟩ => show win0_5.index t (1 : Fin 2) * 512 + 1 * dd.val = dd.val; omega
  rw [hi, V_main_arg6]

/-- The array window 6 stages: the gate's one bias entry as a 1 × 1 array. -/
theorem V_main_v8 : @Eq (FVec Ideal S1x1 .f32) (V m c main_v8)
    (shapeCast S1x1 (m ((c : Thread nD τ).loc main_arg7) : FVec Ideal S1 .f32) shapeCasts_S1_S1x1) := by
  dsimp only [Gen.V, Gen.hostOps0]
  after_results
  rfl

theorem iblk6_apply :
    iblk (F := Ideal) m c 6 t (ix2 (0 : Fin 1) (0 : Fin 1)) = m ((c : Thread nD τ).loc main_arg7) (ix1 (0 : Fin 1)) := by
  show V m c main_v8 (((cfg0.win 6).blk t).view.emb (ix2 (0 : Fin 1) (0 : Fin 1))) = _
  have hi : ((cfg0.win 6).blk t).view.emb (ix2 (0 : Fin 1) (0 : Fin 1)) = ix2 (0 : Fin 1) (0 : Fin 1) := by
    funext a; apply Fin.ext
    obtain ⟨_, _, _, _, _, _, _, _, _, _, _, _, _, e0, e1⟩ := idx_facts t
    match a with
    | ⟨0, _⟩ => show win0_6.index t (0 : Fin 2) * 1 + 1 * (0 : Fin 1).val = (0 : Fin 1).val; omega
    | ⟨1, _⟩ => show win0_6.index t (1 : Fin 2) * 1 + 1 * (0 : Fin 1).val = (0 : Fin 1).val; omega
  rw [hi, V_main_v8]
  exact shapeCast_a_1a_apply _ _ (0 : Fin 1) (0 : Fin 1)

end Cert.KValue

end
-- ==== Proof.KArray.lean ====
/-
  From blocks to the array.  Grid point `t` writes back rows `32t … 32t+31` of the [1024, 512] result: the block's stored
  value at (gb, d) is the specification's readout of graph `32t + gb`, because the point's input block is those 32
  graphs' rows and the weight operands are the whole (re-laid) weight arrays.  The 32 blocks cover the result, so the
  result array after the run is the specification's readout of every graph.
-/
import proofs.«105360_j10771777978557_2_alg».proof.Proof.Gen.KernelIdeal.Value
import proofs.«105360_j10771777978557_2_alg».proof.Proof.KBlock
import proofs.«105360_j10771777978557_2_alg».proof.Proof.KWindows

set_option maxRecDepth 16384

noncomputable section

namespace Cert.KValue

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

/-- The specification's readout only depends on its arguments entry by entry. -/
theorem out_congr {x x' : Fin 64 → Fin 512 → EReal} {Wi Wi' : Fin 1536 → Fin 512 → EReal} {bi bi' : Fin 1536 → EReal}
    {Wo Wo' : Fin 512 → Fin 512 → EReal} {bo bo' : Fin 512 → EReal} {gw gw' : Fin 512 → EReal} {gb gb' : EReal} {d d' : Fin 512}
    (h0 : ∀ n dd, x n dd = x' n dd) (h1 : ∀ e dd, Wi e dd = Wi' e dd) (h2 : ∀ e, bi e = bi' e)
    (h3 : ∀ e cc, Wo e cc = Wo' e cc) (h4 : ∀ e, bo e = bo' e) (h5 : ∀ dd, gw dd = gw' dd) (h6 : gb = gb') (hd : d = d') :
    Spec.out x Wi bi Wo bo gw gb d = Spec.out x' Wi' bi' Wo' bo' gw' gb' d' := by
  obtain rfl : x = x' := funext fun n => funext fun dd => h0 n dd
  obtain rfl : Wi = Wi' := funext fun e => funext fun dd => h1 e dd
  obtain rfl : bi = bi' := funext h2
  obtain rfl : Wo = Wo' := funext fun e => funext fun cc => h3 e cc
  obtain rfl : bo = bo' := funext h4
  obtain rfl : gw = gw' := funext h5
  subst h6 hd
  rfl

/-- The result array as a function of the argument arrays: at (g, d) the readout of graph `g`'s 64 rows. -/
def Gout (A0 : S65536x512.Idx → EReal) (A2 : S1536x512.Idx → EReal) (A3 : S1536.Idx → EReal) (A4 : S512x512.Idx → EReal)
    (A5 : S512.Idx → EReal) (A6 : S1x512.Idx → EReal) (A7 : S1.Idx → EReal) : S1024x512.Idx → EReal := fun i =>
  Spec.out (fun n dd => A0 (ix2 (Spec.row ⟨(i 0).val, idx2_lt0 i⟩ n) dd)) (fun e dd => A2 (ix2 e dd)) (fun e => A3 (ix1 e))
    (fun e cc => A4 (ix2 e cc)) (fun e => A5 (ix1 e)) (fun dd => A6 (ix2 0 dd)) (A7 (ix1 0)) ⟨(i 1).val, idx2_lt1 i⟩

variable (m : (ℓ : Loc nD τ sig) → Buf (Elt Ideal) ℓ) (ρ : Dev nD → PrngReg)

/-- The output's block index at point `t` is (t, 0), decided over the 32 points. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- WHAT POINT `t` WRITES BACK is block `t` of the result function of the argument arrays. -/
theorem flushed_eq (c : Dev nD) (t : Fin cfg0.N) :
    (dats m 0 c).flushed 7 t = ((cfg0.win 7).blk t).view.read (Elt Ideal) (Gout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed7_A, out7_eq]
  obtain ⟨e0, e1⟩ := idx7 t
  funext j
  obtain ⟨gb, d, rfl⟩ : ∃ (gb : Fin 32) (d : Fin 512), j = ix2 gb d := ⟨j 0, j 1, eq_ix2 j⟩
  show k0_pay2 (F := Ideal) (ctxT (k0_pay3 (iblk m c 0 t) (iblk m c 1 t) (iblk m c 2 t))) (iblk m c 3 t) (iblk m c 4 t)
      (iblk m c 5 t) (iblk m c 6 t) (ix2 gb d) = Gout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 7).blk t).view.emb (ix2 gb d))
  refine (blk_eq (iblk m c 0 t) (iblk m c 1 t) (iblk m c 2 t) (iblk m c 3 t) (iblk m c 4 t) (iblk m c 5 t) (iblk m c 6 t) gb d).trans ?_
  refine out_congr (fun n dd => iblk0_apply m c t gb n dd _ ?hg) (fun e dd => iblk1_apply m c t dd e) (fun e => iblk2_apply m c t e)
    (fun e cc => iblk3_apply m c t cc e) (fun e => iblk4_apply m c t e) (fun dd => iblk5_apply m c t dd) (iblk6_apply m c t) ?hd
  case hg => show win0_7.index t (0 : Fin 2) * 32 + 1 * gb.val = t.val * 32 + gb.val; omega
  case hd => exact Fin.ext (by show d.val = win0_7.index t (1 : Fin 2) * 512 + 1 * d.val; omega)

/-- An index of the result is in point `t`'s block iff each coordinate is in the block's range on its axis. -/
theorem mem_blk (t : Fin cfg0.N) (i : S1024x512.Idx) :
    i ∈ ((cfg0.win 7).blk t).view.set ↔ ∀ a : Fin 2, win0_7.index t a * S32x512.size a ≤ (i a).val ∧ (i a).val < win0_7.index t a * S32x512.size a + S32x512.size a := by
  show i ∈ ((View.whole main_v9).slice (win0_7.rect t)).set ↔ _
  rw [View.set_slice_whole, Rect.mem_set_unit]
  exact Iff.rfl

/-- Every index of the result is in some point's block: row `r` in point `r / 32`'s. -/
theorem cover (i : S1024x512.Idx) : ∃ t : Fin cfg0.N, (cfg0.win 7).flush t = true ∧ i ∈ ((cfg0.win 7).blk t).view.set := by
  have hi0 : (i 0).val < 1024 := idx2_lt0 i
  have hi1 : (i 1).val < 512 := idx2_lt1 i
  let t : Fin cfg0.N := ⟨(i 0).val / 32, by show (i 0).val / 32 < 32; omega⟩
  obtain ⟨e0, e1⟩ := idx7 t
  have et : t.val = (i 0).val / 32 := rfl
  refine ⟨t, flush0_7 t, ?_⟩
  rw [mem_blk]
  intro a
  match a with
  | ⟨0, _⟩ => show win0_7.index t (0 : Fin 2) * 32 ≤ (i 0).val ∧ (i 0).val < win0_7.index t (0 : Fin 2) * 32 + 32; omega
  | ⟨1, _⟩ => show win0_7.index t (1 : Fin 2) * 512 ≤ (i 1).val ∧ (i 1).val < win0_7.index t (1 : Fin 2) * 512 + 512; omega

/-- THE RESULT ARRAY after the run is the result function of the argument arrays. -/
theorem final (c : Dev nD) : (dats m 0 c).arrAt 7 cfg0.N = Gout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 7 (Gout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v9) = Gout (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KValue

end
-- ==== Proof.RefProj.lean ====
/-
  The reference's packed projection read at coordinates: the reshaped input row `g·64+n`, contracted with
  the packed weights over the 512 features, plus the broadcast bias, is the specification's `proj`.
-/
import proofs.«105360_j10771777978557_2_alg».proof.Proof.Gen.ReferenceIdeal.Read
import proofs.«105360_j10771777978557_2_alg».proof.Proof.Spec

noncomputable section

namespace Cert.RefSpec

open Cert.ReferenceIdeal Cert.ReferenceIdeal.Read Idealize.ShloMosaic Idealize.ShloMosaic.ValueIdx

/-- The specification's arguments as read from the reference's buffers: the 64 rows of graph `g`, the packed
    projection weights and bias, the output projection's, the gate's row and its one bias entry. -/
abbrev xs (A0 : FVec Ideal S65536x512 .f32) (g : Fin 1024) : Fin 64 → Fin 512 → EReal :=
  fun n dd => A0 (ix2 (Cert.Spec.row g n) dd)
abbrev wi (A2 : FVec Ideal S1536x512 .f32) : Fin 1536 → Fin 512 → EReal := fun e dd => A2 (ix2 e dd)
abbrev bi (A3 : FVec Ideal S1536 .f32) : Fin 1536 → EReal := fun e => A3 (ix1 e)
abbrev wo (A4 : FVec Ideal S512x512 .f32) : Fin 512 → Fin 512 → EReal := fun e c => A4 (ix2 e c)
abbrev bo (A5 : FVec Ideal S512 .f32) : Fin 512 → EReal := fun e => A5 (ix1 e)
abbrev gw (A6 : FVec Ideal S1x512 .f32) : Fin 512 → EReal := fun dd => A6 (ix2 0 dd)
abbrev gb (A7 : FVec Ideal S1 .f32) : EReal := A7 (ix1 0)

variable (A0 : FVec Ideal S65536x512 .f32) (A2 : FVec Ideal S1536x512 .f32) (A3 : FVec Ideal S1536 .f32)

/-- The reshape reads row `g·64+n`, column `dd` of the input. -/
theorem v0_eq (g : Fin 1024) (n : Fin 64) (dd : Fin 512) :
    val_main_v0 (F := Ideal) A0 (ix3 g n dd) = xs A0 g n dd := by
  rw [val_main_v0_apply]
  show A0 _ = A0 _
  congr 1
  funext a
  apply Fin.ext
  match a with
  | ⟨0, _⟩ =>
    show ((g.val * 64 + n.val) * 512 + dd.val) / 512 = g.val * 64 + n.val
    have := dd.isLt
    omega
  | ⟨1, _⟩ =>
    show ((g.val * 64 + n.val) * 512 + dd.val) % 512 = dd.val
    have := dd.isLt
    omega

/-- The projection plus bias is `Spec.proj` of the graph's rows. -/
theorem v4_eq (g : Fin 1024) (n : Fin 64) (e : Fin 1536) :
    val_main_v4 (F := Ideal) A0 A2 A3 (ix3 g n e) = Cert.Spec.proj (xs A0 g) (wi A2) (bi A3) n e := by
  rw [val_main_v4_apply, val_main_v1_apply, val_main_v3_apply, val_main_v2_apply]
  unfold Cert.Spec.proj
  have el : ∀ k : Fin 512, lidx_main_v1 (ix3 g n e) k = ix3 g n k := fun k => funext fun a => by
    match a with
    | ⟨0, _⟩ => rfl
    | ⟨1, _⟩ => rfl
    | ⟨2, _⟩ => rfl
  have er : ∀ k : Fin 512, ridx_main_v1 (ix3 g n e) k = ix2 e k := fun k => funext fun a => by
    match a with
    | ⟨0, _⟩ => rfl
    | ⟨1, _⟩ => rfl
  have eb : idx_main_v2 (idx_main_v3 (ix3 g n e)) = ix1 e := funext fun a => by
    match a with
    | ⟨0, _⟩ => rfl
  simp only [el, er, eb, v0_eq]
  rfl

end Cert.RefSpec

end
-- ==== Proof.RefHeads.lean ====
/-
  The query, key and value heads of the reference: a slice of the packed projection's last axis (offset 0, 512,
  1024), split into 8 heads of 64 lanes and transposed so the head axis comes second. At (g, h, n, j) each is the
  projection of node `n` at the column of head `h`, lane `j` in its third.
-/
import proofs.«105360_j10771777978557_2_alg».proof.Proof.RefProj

noncomputable section

namespace Cert.RefSpec

open Cert.ReferenceIdeal Cert.ReferenceIdeal.Read Idealize.ShloMosaic Idealize.ShloMosaic.ValueIdx

variable (A0 : FVec Ideal S65536x512 .f32) (A2 : FVec Ideal S1536x512 .f32) (A3 : FVec Ideal S1536 .f32)

/-- Row-major position of (g, n, h, j) in 1024×64×8×64 read back as (g, n, 64h+j) in 1024×64×512. -/
theorem flat_split (g n h j : Nat) (hn : n < 64) (hh : h < 8) (hj : j < 64) :
    (((g * 64 + n) * 8 + h) * 64 + j) / 32768 = g ∧ (((g * 64 + n) * 8 + h) * 64 + j) / 512 % 64 = n
      ∧ (((g * 64 + n) * 8 + h) * 64 + j) % 512 = 64 * h + j
      ∧ 512 + (((g * 64 + n) * 8 + h) * 64 + j) % 512 = 512 + 64 * h + j
      ∧ 1024 + (((g * 64 + n) * 8 + h) * 64 + j) % 512 = 1024 + 64 * h + j := by
  omega

theorem v9_eq (g : Fin 1024) (h : Fin 8) (n j : Fin 64) :
    val_main_v9 (F := Ideal) A0 A2 A3 (ix4 g h n j)
      = Cert.Spec.proj (xs A0 g) (wi A2) (bi A3) n (Cert.Spec.qcol h j) := by
  rw [val_main_v9_apply, val_main_v8_apply, val_main_v5_apply]
  have e : idx_main_v5 (idx_main_v8 (idx_main_v9 (ix4 g h n j))) = ix3 g n (Cert.Spec.qcol h j) :=
    funext fun a => Fin.ext (by
      have f := flat_split g.val n.val h.val j.val n.isLt h.isLt j.isLt
      match a with
      | ⟨0, _⟩ => exact f.1
      | ⟨1, _⟩ => exact f.2.1
      | ⟨2, _⟩ => exact f.2.2.1)
  rw [e, v4_eq]

theorem v11_eq (g : Fin 1024) (h : Fin 8) (n j : Fin 64) :
    val_main_v11 (F := Ideal) A0 A2 A3 (ix4 g h n j)
      = Cert.Spec.proj (xs A0 g) (wi A2) (bi A3) n (Cert.Spec.kcol h j) := by
  rw [val_main_v11_apply, val_main_v10_apply, val_main_v6_apply]
  have e : idx_main_v6 (idx_main_v10 (idx_main_v11 (ix4 g h n j))) = ix3 g n (Cert.Spec.kcol h j) :=
    funext fun a => Fin.ext (by
      have f := flat_split g.val n.val h.val j.val n.isLt h.isLt j.isLt
      match a with
      | ⟨0, _⟩ => exact f.1
      | ⟨1, _⟩ => exact f.2.1
      | ⟨2, _⟩ => exact f.2.2.2.1)
  rw [e, v4_eq]

theorem v13_eq (g : Fin 1024) (h : Fin 8) (n j : Fin 64) :
    val_main_v13 (F := Ideal) A0 A2 A3 (ix4 g h n j)
      = Cert.Spec.proj (xs A0 g) (wi A2) (bi A3) n (Cert.Spec.vcol h j) := by
  rw [val_main_v13_apply, val_main_v12_apply, val_main_v7_apply]
  have e : idx_main_v7 (idx_main_v12 (idx_main_v13 (ix4 g h n j))) = ix3 g n (Cert.Spec.vcol h j) :=
    funext fun a => Fin.ext (by
      have f := flat_split g.val n.val h.val j.val n.isLt h.isLt j.isLt
      match a with
      | ⟨0, _⟩ => exact f.1
      | ⟨1, _⟩ => exact f.2.1
      | ⟨2, _⟩ => exact f.2.2.2.2)
  rw [e, v4_eq]

end Cert.RefSpec

end
-- ==== Proof.RefScore.lean ====
/-
  The scaled scores of the reference: per graph and head, the contraction of the query head of node `n` with the key
  head of node `m` over the 64 lanes, times the f32 word of 1/8 (the same word the specification carries, never evaluated).
-/
import proofs.«105360_j10771777978557_2_alg».proof.Proof.RefHeads

noncomputable section

namespace Cert.RefSpec

open Cert.ReferenceIdeal Cert.ReferenceIdeal.Read Idealize.ShloMosaic Idealize.ShloMosaic.ValueIdx

variable (A0 : FVec Ideal S65536x512 .f32) (A2 : FVec Ideal S1536x512 .f32) (A3 : FVec Ideal S1536 .f32)

theorem v16_eq (g : Fin 1024) (h : Fin 8) (n m : Fin 64) :
    val_main_v16 (F := Ideal) A0 A2 A3 (ix4 g h n m) = Cert.Spec.score (xs A0 g) (wi A2) (bi A3) h n m := by
  rw [val_main_v16_apply, val_main_v14_apply, val_main_v15_apply, val_main_cst_apply]
  unfold Cert.Spec.score
  have el : ∀ k : Fin 64, lidx_main_v14 (ix4 g h n m) k = ix4 g h n k := fun k => funext fun a => by
    match a with
    | ⟨0, _⟩ => rfl
    | ⟨1, _⟩ => rfl
    | ⟨2, _⟩ => rfl
    | ⟨3, _⟩ => rfl
  have er : ∀ k : Fin 64, ridx_main_v14 (ix4 g h n m) k = ix4 g h m k := fun k => funext fun a => by
    match a with
    | ⟨0, _⟩ => rfl
    | ⟨1, _⟩ => rfl
    | ⟨2, _⟩ => rfl
    | ⟨3, _⟩ => rfl
  simp only [el, er, v9_eq, v11_eq]
  rfl

end Cert.RefSpec

end
-- ==== Proof.RefMax.lean ====
/-
  The row maximum of the reference's softmax: a max-reduce of the scores over the key axis, started from the f32 word of
  −∞, then once more the maximum against that word. At (g, h, n) it is the specification's `rowmax`.
-/
import proofs.«105360_j10771777978557_2_alg».proof.Proof.RefScore

noncomputable section

namespace Cert.RefSpec

open Cert.ReferenceIdeal Cert.ReferenceIdeal.Read Idealize.ShloMosaic Idealize.ShloMosaic.ValueIdx
open Cert.ReferenceIdeal.Gen

variable (A0 : FVec Ideal S65536x512 .f32) (A2 : FVec Ideal S1536x512 .f32) (A3 : FVec Ideal S1536 .f32)

/-- The shape fact that names the index inserted on the reduced (last) axis. -/
theorem red_keys : S1024x8x64x64.Reduces [3] S1024x8x64 := by decide

/-- The max-reduce at (g, h, n): the fold of max from the −∞ word over the 64 key nodes' scores. -/
theorem v17_eq (g : Fin 1024) (h : Fin 8) (n : Fin 64) :
    val_main_v17 (F := Ideal) A0 A2 A3 (ix3 g h n)
      = (Finset.univ : Finset (Fin 64)).fold max Cert.Spec.ninf
          (fun m => Cert.Spec.score (xs A0 g) (wi A2) (bi A3) h n m) := by
  unfold val_main_v17
  rw [Host.reduce_eq_fold_single FloatOps.maximumf _ _ reducesTo_S1024x8x64x64_S1024x8x64_d3 red_keys h_S_]
  have e : (val_main_v16 (F := Ideal) A0 A2 A3 ∘ red_keys.lift (ix3 g h n))
      = fun m : Fin 64 => Cert.Spec.score (xs A0 g) (wi A2) (bi A3) h n m := funext fun (m : Fin 64) => by
    have ei : red_keys.lift (ix3 g h n) m = ix4 g h n m := funext fun a => Fin.ext (by
      match a with
      | ⟨0, _⟩ => rfl
      | ⟨1, _⟩ => rfl
      | ⟨2, _⟩ => rfl
      | ⟨3, _⟩ => rfl)
    show val_main_v16 (F := Ideal) A0 A2 A3 (red_keys.lift (ix3 g h n) m) = _
    rw [ei, v16_eq]
  rw [e]
  rfl

theorem v19_eq (g : Fin 1024) (h : Fin 8) (n : Fin 64) :
    val_main_v19 (F := Ideal) A0 A2 A3 (ix3 g h n) = Cert.Spec.rowmax (xs A0 g) (wi A2) (bi A3) h n := by
  rw [val_main_v19_apply, val_main_v18_apply, val_main_cst_1_apply, v17_eq]
  rfl

end Cert.RefSpec

end
-- ==== Proof.RefSoftmax.lean ====
/-
  The reference's softmax: the exponential of the score minus the row maximum, its sum over the key axis (a host sum
  started from the zero word), and the quotient. At (g, h, n, m) these are the specification's `ex` and `attn`.
-/
import proofs.«105360_j10771777978557_2_alg».proof.Proof.RefMax

noncomputable section

namespace Cert.RefSpec

open Cert.ReferenceIdeal Cert.ReferenceIdeal.Read Idealize.ShloMosaic Idealize.ShloMosaic.ValueIdx
open Cert.ReferenceIdeal.Gen

variable (A0 : FVec Ideal S65536x512 .f32) (A2 : FVec Ideal S1536x512 .f32) (A3 : FVec Ideal S1536 .f32)

theorem v23_eq (g : Fin 1024) (h : Fin 8) (n m : Fin 64) :
    val_main_v23 (F := Ideal) A0 A2 A3 (ix4 g h n m) = Cert.Spec.ex (xs A0 g) (wi A2) (bi A3) h n m := by
  rw [val_main_v23_apply, val_main_v22_apply, val_main_v21_apply, val_main_v20_apply]
  have e : idx_main_v20 (idx_main_v21 (ix4 g h n m)) = ix3 g h n := funext fun a => by
    match a with
    | ⟨0, _⟩ => rfl
    | ⟨1, _⟩ => rfl
    | ⟨2, _⟩ => rfl
  rw [e, v16_eq, v19_eq]
  rfl

/-- The row sum of the shifted exponentials: the zero word contributes nothing. -/
theorem v24_eq (g : Fin 1024) (h : Fin 8) (n : Fin 64) :
    val_main_v24 (F := Ideal) A0 A2 A3 (ix3 g h n)
      = ∑ m' : Fin 64, Cert.Spec.ex (xs A0 g) (wi A2) (bi A3) h n m' := by
  rw [val_main_v24_apply, val_main_cst_2_apply]
  have e : ∀ k : Fin 64, idx_main_v24 (ix3 g h n) k = ix4 g h n k := fun k => funext fun a => by
    match a with
    | ⟨0, _⟩ => rfl
    | ⟨1, _⟩ => rfl
    | ⟨2, _⟩ => rfl
    | ⟨3, _⟩ => rfl
  simp only [e, v23_eq]
  show Ideal.ofBits .f32 0x00000000#32 + _ = _
  rw [Ideal.ofBits_zero_f32, zero_add]

theorem v27_eq (g : Fin 1024) (h : Fin 8) (n m : Fin 64) :
    val_main_v27 (F := Ideal) A0 A2 A3 (ix4 g h n m) = Cert.Spec.attn (xs A0 g) (wi A2) (bi A3) h n m := by
  rw [val_main_v27_apply, val_main_v26_apply, val_main_v25_apply]
  have e : idx_main_v25 (idx_main_v26 (ix4 g h n m)) = ix3 g h n := funext fun a => by
    match a with
    | ⟨0, _⟩ => rfl
    | ⟨1, _⟩ => rfl
    | ⟨2, _⟩ => rfl
  rw [e, v23_eq, v24_eq]
  rfl

end Cert.RefSpec

end
-- ==== Proof.RefCtx.lean ====
/-
  The reference's context: the contraction of the softmax weights with the value head over the key nodes, then the head
  axis moved back behind the node axis and merged with the lane axis. At (g, n, c) it is the specification's `ctx` with
  head `c / 64` and lane `c % 64`.
-/
import proofs.«105360_j10771777978557_2_alg».proof.Proof.RefSoftmax

noncomputable section

namespace Cert.RefSpec

open Cert.ReferenceIdeal Cert.ReferenceIdeal.Read Idealize.ShloMosaic Idealize.ShloMosaic.ValueIdx

variable (A0 : FVec Ideal S65536x512 .f32) (A2 : FVec Ideal S1536x512 .f32) (A3 : FVec Ideal S1536 .f32)

theorem v28_eq (g : Fin 1024) (h : Fin 8) (n j : Fin 64) :
    val_main_v28 (F := Ideal) A0 A2 A3 (ix4 g h n j)
      = ∑ m : Fin 64, Cert.Spec.attn (xs A0 g) (wi A2) (bi A3) h n m
          * Cert.Spec.proj (xs A0 g) (wi A2) (bi A3) m (Cert.Spec.vcol h j) := by
  rw [val_main_v28_apply]
  have el : ∀ k : Fin 64, lidx_main_v28 (ix4 g h n j) k = ix4 g h n k := fun k => funext fun a => by
    match a with
    | ⟨0, _⟩ => rfl
    | ⟨1, _⟩ => rfl
    | ⟨2, _⟩ => rfl
    | ⟨3, _⟩ => rfl
  have er : ∀ k : Fin 64, ridx_main_v28 (ix4 g h n j) k = ix4 g h k j := fun k => funext fun a => by
    match a with
    | ⟨0, _⟩ => rfl
    | ⟨1, _⟩ => rfl
    | ⟨2, _⟩ => rfl
    | ⟨3, _⟩ => rfl
  simp only [el, er, v27_eq, v13_eq]

/-- Row-major position of (g, n, c) in 1024×64×512 read back as (g, n, c / 64, c % 64) in 1024×64×8×64. -/
theorem ctx_split (g n c : Nat) (hn : n < 64) (hc : c < 512) :
    ((g * 64 + n) * 512 + c) / 32768 = g ∧ ((g * 64 + n) * 512 + c) / 64 % 8 = c / 64
      ∧ ((g * 64 + n) * 512 + c) / 512 % 64 = n ∧ ((g * 64 + n) * 512 + c) % 64 = c % 64 := by
  omega

theorem v30_eq (g : Fin 1024) (n : Fin 64) (c : Fin 512) :
    val_main_v30 (F := Ideal) A0 A2 A3 (ix3 g n c) = Cert.Spec.ctx (xs A0 g) (wi A2) (bi A3) n c := by
  rw [val_main_v30_apply, val_main_v29_apply]
  have e : idx_main_v29 (idx_main_v30 (ix3 g n c)) = ix4 g (Cert.Spec.hd c) n (Cert.Spec.lane c) :=
    funext fun a => Fin.ext (by
      have f := ctx_split g.val n.val c.val n.isLt c.isLt
      match a with
      | ⟨0, _⟩ => exact f.1
      | ⟨1, _⟩ => exact f.2.1
      | ⟨2, _⟩ => exact f.2.2.1
      | ⟨3, _⟩ => exact f.2.2.2)
  rw [e, v28_eq]
  rfl

end Cert.RefSpec

end
-- ==== Proof.RefAo.lean ====
/-
  The reference's output projection: the context contracted with the output weights over its 512 columns, plus the
  broadcast bias. At (g, n, e) it is the specification's `ao`.
-/
import proofs.«105360_j10771777978557_2_alg».proof.Proof.RefCtx

noncomputable section

namespace Cert.RefSpec

open Cert.ReferenceIdeal Cert.ReferenceIdeal.Read Idealize.ShloMosaic Idealize.ShloMosaic.ValueIdx

variable (A0 : FVec Ideal S65536x512 .f32) (A2 : FVec Ideal S1536x512 .f32) (A3 : FVec Ideal S1536 .f32)
  (A4 : FVec Ideal S512x512 .f32) (A5 : FVec Ideal S512 .f32)

theorem v34_eq (g : Fin 1024) (n : Fin 64) (e : Fin 512) :
    val_main_v34 (F := Ideal) A0 A2 A3 A4 A5 (ix3 g n e)
      = Cert.Spec.ao (xs A0 g) (wi A2) (bi A3) (wo A4) (bo A5) n e := by
  rw [val_main_v34_apply, val_main_v31_apply, val_main_v33_apply, val_main_v32_apply]
  unfold Cert.Spec.ao
  have el : ∀ k : Fin 512, lidx_main_v31 (ix3 g n e) k = ix3 g n k := fun k => funext fun a => by
    match a with
    | ⟨0, _⟩ => rfl
    | ⟨1, _⟩ => rfl
    | ⟨2, _⟩ => rfl
  have er : ∀ k : Fin 512, ridx_main_v31 (ix3 g n e) k = ix2 e k := fun k => funext fun a => by
    match a with
    | ⟨0, _⟩ => rfl
    | ⟨1, _⟩ => rfl
  have eb : idx_main_v32 (idx_main_v33 (ix3 g n e)) = ix1 e := funext fun a => by
    match a with
    | ⟨0, _⟩ => rfl
  simp only [el, er, eb, v30_eq]
  rfl

end Cert.RefSpec

end
-- ==== Proof.RefGate.lean ====
/-
  The reference's gate: the output projection contracted with the gate's one weight row, plus its one bias entry, then
  negate, exponential, one plus, one over — which on the extended reals is the logistic function. At (g, n, 0) it is the
  specification's `gate`.
-/
import proofs.«105360_j10771777978557_2_alg».proof.Proof.RefAo
import Idealize.ShloMosaic.Lib.IdealHost

noncomputable section

namespace Cert.RefSpec

open Cert.ReferenceIdeal Cert.ReferenceIdeal.Read Idealize.ShloMosaic Idealize.ShloMosaic.ValueIdx

variable (A0 : FVec Ideal S65536x512 .f32) (A2 : FVec Ideal S1536x512 .f32) (A3 : FVec Ideal S1536 .f32)
  (A4 : FVec Ideal S512x512 .f32) (A5 : FVec Ideal S512 .f32) (A6 : FVec Ideal S1x512 .f32) (A7 : FVec Ideal S1 .f32)

/-- The gate's argument: the contraction with the weight row plus the bias entry. -/
theorem v38_eq (g : Fin 1024) (n : Fin 64) :
    val_main_v38 (F := Ideal) A0 A2 A3 A4 A5 A6 A7 (ix3 g n (0 : Fin 1))
      = (∑ d : Fin 512, Cert.Spec.ao (xs A0 g) (wi A2) (bi A3) (wo A4) (bo A5) n d * gw A6 d) + gb A7 := by
  rw [val_main_v38_apply, val_main_v35_apply, val_main_v37_apply, val_main_v36_apply]
  have el : ∀ k : Fin 512, lidx_main_v35 (ix3 g n (0 : Fin 1)) k = ix3 g n k := fun k => funext fun a => by
    match a with
    | ⟨0, _⟩ => rfl
    | ⟨1, _⟩ => rfl
    | ⟨2, _⟩ => rfl
  have er : ∀ k : Fin 512, ridx_main_v35 (ix3 g n (0 : Fin 1)) k = ix2 (0 : Fin 1) k := fun k => funext fun a => by
    match a with
    | ⟨0, _⟩ => rfl
    | ⟨1, _⟩ => rfl
  have eb : idx_main_v36 (idx_main_v37 (ix3 g n (0 : Fin 1))) = ix1 (0 : Fin 1) := funext fun a => by
    match a with
    | ⟨0, _⟩ => rfl
  simp only [el, er, eb, v34_eq]
  rfl

/-- One over one plus the exponential of the negated argument is the logistic function (the word of 1 is 1). -/
theorem v44_eq (g : Fin 1024) (n : Fin 64) :
    val_main_v44 (F := Ideal) A0 A2 A3 A4 A5 A6 A7 (ix3 g n (0 : Fin 1))
      = Cert.Spec.gate (xs A0 g) (wi A2) (bi A3) (wo A4) (bo A5) (gw A6) (gb A7) n := by
  rw [val_main_v44_apply, val_main_v43_apply, val_main_cst_4_apply, val_main_v42_apply, val_main_v41_apply,
    val_main_cst_3_apply, val_main_v40_apply, val_main_v39_apply, v38_eq]
  simp only [Ideal.ofBits_def, Ideal.ofBits_one_f32, Ideal.hostDivf_def, Ideal.addf_def, Ideal.hostUnary_exp_def,
    Ideal.hostNegf_def, Ideal.negf_def]
  rfl

end Cert.RefSpec

end
-- ==== Proof.RefOut.lean ====
/-
  The reference's readout: the output projection times the node's gate (broadcast along the columns), summed over the
  graph's 64 nodes by a host sum started from the zero word. At (g, d) it is the specification's `out`; this is the
  reference's last stage, so the reference computes the specification.
-/
import proofs.«105360_j10771777978557_2_alg».proof.Proof.RefGate

noncomputable section

namespace Cert.RefSpec

open Cert.ReferenceIdeal Cert.ReferenceIdeal.Read Idealize.ShloMosaic Idealize.ShloMosaic.ValueIdx
open Cert.ReferenceIdeal.Gen

variable (A0 : FVec Ideal S65536x512 .f32) (A2 : FVec Ideal S1536x512 .f32) (A3 : FVec Ideal S1536 .f32)
  (A4 : FVec Ideal S512x512 .f32) (A5 : FVec Ideal S512 .f32) (A6 : FVec Ideal S1x512 .f32) (A7 : FVec Ideal S1 .f32)

theorem v46_eq (g : Fin 1024) (n : Fin 64) (d : Fin 512) :
    val_main_v46 (F := Ideal) A0 A2 A3 A4 A5 A6 A7 (ix3 g n d)
      = Cert.Spec.ao (xs A0 g) (wi A2) (bi A3) (wo A4) (bo A5) n d * Cert.Spec.gate (xs A0 g) (wi A2) (bi A3) (wo A4) (bo A5) (gw A6) (gb A7) n := by
  rw [val_main_v46_apply, val_main_v45_apply]
  have e : idx_main_v45 (ix3 g n d) = ix3 g n (0 : Fin 1) := funext fun a => by
    match a with
    | ⟨0, _⟩ => rfl
    | ⟨1, _⟩ => rfl
    | ⟨2, _⟩ => rfl
  rw [e, v34_eq, v44_eq]
  rfl

theorem v47_eq (g : Fin 1024) (d : Fin 512) :
    val_main_v47 (F := Ideal) A0 A2 A3 A4 A5 A6 A7 (ix2 g d) = Cert.Spec.out (xs A0 g) (wi A2) (bi A3) (wo A4) (bo A5) (gw A6) (gb A7) d := by
  rw [val_main_v47_apply, val_main_cst_5_apply]
  have e : ∀ k : Fin 64, idx_main_v47 (ix2 g d) k = ix3 g k d := fun k => funext fun a => by
    match a with
    | ⟨0, _⟩ => rfl
    | ⟨1, _⟩ => rfl
    | ⟨2, _⟩ => rfl
  simp only [e, v46_eq]
  show Ideal.ofBits .f32 0x00000000#32 + _ = _
  rw [Ideal.ofBits_zero_f32, zero_add]
  rfl

/-- The reference's last stage at (g, d) is the specification's readout of graph `g`'s rows. -/
theorem ref_eq (A0 : FVec Ideal S65536x512 .f32) (A2 : FVec Ideal S1536x512 .f32) (A3 : FVec Ideal S1536 .f32)
    (A4 : FVec Ideal S512x512 .f32) (A5 : FVec Ideal S512 .f32) (A6 : FVec Ideal S1x512 .f32) (A7 : FVec Ideal S1 .f32)
    (g : Fin 1024) (d : Fin 512) :
    Cert.ReferenceIdeal.Read.val_main_v47 (F := Ideal) A0 A2 A3 A4 A5 A6 A7 (ValueIdx.ix2 g d)
      = Cert.Spec.out (fun n dd => A0 (ValueIdx.ix2 (Cert.Spec.row g n) dd)) (fun e dd => A2 (ValueIdx.ix2 e dd))
          (fun e => A3 (ValueIdx.ix1 e)) (fun e c => A4 (ValueIdx.ix2 e c)) (fun e => A5 (ValueIdx.ix1 e))
          (fun dd => A6 (ValueIdx.ix2 0 dd)) (A7 (ValueIdx.ix1 0)) d :=
  v47_eq A0 A2 A3 A4 A5 A6 A7 g d

end Cert.RefSpec

end
-- ==== Proof.lean ====
/-
  The kernel — a fused multi-head self-attention readout over 1024 graphs of 64 nodes, 32 graphs per grid point —
  against its reference program, on the extended reals.

  Both compute, for every graph, `out d = Σ_n ao n d · logistic(Σ_d' ao n d' · gw d' + gb)` with
  `ao = ctx · Woᵀ + bo`, `ctx` the eight heads' softmax(q kᵀ / 8) v over the packed projection `x · Wiᵀ + bi`
  (Proof/Spec.lean).  The two texts differ only in layout: the kernel flattens a block's graphs into 2048 rows, keeps
  the projection and the context in scratch arrays it reads back 64 columns at a time, and contracts against transposed
  copies of the weights; the reference splits heads by reshape and transpose of whole arrays.  Every step is the same
  sum, maximum, exponential and quotient, so no algebraic law beyond re-indexing is used and the inputs' finiteness is
  never opened; a change of float format is the identity at these values, and the kernel's logistic is the reference's
  1 / (1 + exp(−z)) by definition.

  Kernel side: what the body leaves in the output block (Proof/KPieces.lean), read at an index (Proof/KOps.lean,
  Proof/KBlock.lean), block by block over the grid (Proof/KWindows.lean, Proof/KArray.lean).  Reference side: its
  operations one at a time at an index (Proof/RefProj.lean … Proof/RefOut.lean).  The three frames are the generated
  ones; the idealization rewrote nothing.
-/
import proofs.«105360_j10771777978557_2_alg».proof.Defs
import proofs.«105360_j10771777978557_2_alg».proof.Proof.Gen.Kernel
import proofs.«105360_j10771777978557_2_alg».proof.Proof.Gen.Kernel.Skeleton
import proofs.«105360_j10771777978557_2_alg».proof.Proof.Gen.Kernel.Launch
import proofs.«105360_j10771777978557_2_alg».proof.Proof.Gen.Kernel.Points
import proofs.«105360_j10771777978557_2_alg».proof.Proof.Gen.Kernel.Frame
import proofs.«105360_j10771777978557_2_alg».proof.Proof.Gen.KernelIdeal
import proofs.«105360_j10771777978557_2_alg».proof.Proof.Gen.KernelIdeal.Skeleton
import proofs.«105360_j10771777978557_2_alg».proof.Proof.Gen.KernelIdeal.Launch
import proofs.«105360_j10771777978557_2_alg».proof.Proof.Gen.KernelIdeal.Points
import proofs.«105360_j10771777978557_2_alg».proof.Proof.Gen.KernelIdeal.Frame
import proofs.«105360_j10771777978557_2_alg».proof.Proof.Gen.ReferenceIdeal
import proofs.«105360_j10771777978557_2_alg».proof.Proof.Gen.Pre_finite_inputs
import proofs.«105360_j10771777978557_2_alg».proof.Proof.Gen.KernelIdeal.Value
import proofs.«105360_j10771777978557_2_alg».proof.Proof.Gen.ReferenceIdeal.Run
import proofs.«105360_j10771777978557_2_alg».proof.Proof.Gen.ReferenceIdeal.Read
import proofs.«105360_j10771777978557_2_alg».proof.Proof.KArray
import proofs.«105360_j10771777978557_2_alg».proof.Proof.RefOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification's readout of every graph (the kernel's
    run, block by block), and so does the reference's (its run, operation by operation), from arguments that agree. -/
theorem algebraic : Cert.algebraic_KernelIdeal_ReferenceIdeal := by
  intro m ρ m' ρ' _ hagree
  refine ⟨_, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.2.1, (hagree c).2.2.2.1, (hagree c).2.2.2.2.1,
    (hagree c).2.2.2.2.2.1, (hagree c).2.2.2.2.2.2.1, (hagree c).2.2.2.2.2.2.2]
  funext i
  obtain ⟨g, d, rfl⟩ : ∃ (g : Fin 1024) (d : Fin 512), i = ValueIdx.ix2 g d := ⟨i 0, i 1, ValueIdx.eq_ix2 i⟩
  exact Cert.RefSpec.ref_eq _ _ _ _ _ _ _ g d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
